-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x64x64 : Shape := ⟨4, ![64, 128, 64, 64]⟩
abbrev S128x8 : Shape := ⟨2, ![128, 8]⟩
abbrev S_ : Shape := ⟨0, ![]⟩

class Facts : Prop where
  bcast_S_S64x128x64x64 : S_.BroadcastsInDim S64x128x64x64 (![] : Fin 0 → Fin S64x128x64x64.rank)
  reducesTo_S64x128x64x64_S_d0_1_2_3 : S64x128x64x64.ReducesTo [0, 1, 2, 3] S_
  h_S_ : 0 < S_.numel
  bcast_S_S128x8 : S_.BroadcastsInDim S128x8 (![] : Fin 0 → Fin S128x8.rank)
  reducesTo_S128x8_S_d0_1 : S128x8.ReducesTo [0, 1] S_

variable [Facts]

def fn {F : FTy → Type} [FloatOps F] (main_arg0 : FVec F S64x128x64x64 .f32) (main_arg1 : FVec F S128x8 .f32) : IVec S_ 1 :=
  let main_v0 : FVec F S64x128x64x64 .f32 := Host.absf main_arg0
  let main_cst : FVec F S_ .f32 := constant S_ .f32 0x7F800000#32
  let main_v1 : FVec F S64x128x64x64 .f32 := broadcastInDim S64x128x64x64 ![] bcast_S_S64x128x64x64 main_cst
  let main_v2 : IVec S64x128x64x64 1 := cmpf .olt main_v0 main_v1
  let main_c : IVec S_ 1 := constantI S_ 1 1#1
  let main_v3 : IVec S_ 1 := (fun x v => Host.reduce IntOp.andi x v reducesTo_S64x128x64x64_S_d0_1_2_3 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  main_v8
-- ==== Kernel.lean ====
abbrev S64x128x64x64 : Shape := ⟨4, ![64, 128, 64, 64]⟩
abbrev S128x8 : Shape := ⟨2, ![128, 8]⟩
abbrev S64x128x4096 : Shape := ⟨3, ![64, 128, 4096]⟩
abbrev S128x1 : Shape := ⟨2, ![128, 1]⟩
abbrev S128x7 : Shape := ⟨2, ![128, 7]⟩
abbrev S_ : Shape := ⟨0, ![]⟩
abbrev S128 : Shape := ⟨1, ![128]⟩
abbrev S64x128x9 : Shape := ⟨3, ![64, 128, 9]⟩
abbrev S16x128x512 : Shape := ⟨3, ![16, 128, 512]⟩
abbrev S16x128x9 : Shape := ⟨3, ![16, 128, 9]⟩
abbrev S1x128x1 : Shape := ⟨3, ![1, 128, 1]⟩
abbrev S16x128 : Shape := ⟨2, ![16, 128]⟩
abbrev S16x128x1 : Shape := ⟨3, ![16, 128, 1]⟩

abbrev nBuf : Space → Nat
  | .hbm => 29
  | .vmem => 8
  | .smem => 0
  | _ => 0

abbrev bufTy : (tb : Table) → Fin (tcTables nBuf tb) → BufTy
  | .hbm, ⟨0, _⟩ => ⟨S64x128x64x64, .f32⟩
  | .hbm, ⟨1, _⟩ => ⟨S128x8, .f32⟩
  | .hbm, ⟨2, _⟩ => ⟨S64x128x4096, .f32⟩
  | .hbm, ⟨3, _⟩ => ⟨S128x1, .f32⟩
  | .hbm, ⟨4, _⟩ => ⟨S128x7, .f32⟩
  | .hbm, ⟨5, _⟩ => ⟨S128x7, .f32⟩
  | .hbm, ⟨6, _⟩ => ⟨S128x7, .f32⟩
  | .hbm, ⟨7, _⟩ => ⟨S_, .f32⟩
  | .hbm, ⟨8, _⟩ => ⟨S128x7, .f32⟩
  | .hbm, ⟨9, _⟩ => ⟨S128x7, .f32⟩
  | .hbm, ⟨10, _⟩ => ⟨S128x8, .f32⟩
  | .hbm, ⟨11, _⟩ => ⟨S128x1, .f32⟩
  | .hbm, ⟨12, _⟩ => ⟨S128, .f32⟩
  | .hbm, ⟨13, _⟩ => ⟨S128x1, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128x7, .f32⟩
  | .hbm, ⟨21, _⟩ => ⟨S128x7, .f32⟩
  | .hbm, ⟨22, _⟩ => ⟨S128x7, .f32⟩
  | .hbm, ⟨23, _⟩ => ⟨S_, .f32⟩
  | .hbm, ⟨24, _⟩ => ⟨S128x7, .f32⟩
  | .hbm, ⟨25, _⟩ => ⟨S128x7, .f32⟩
  | .hbm, ⟨26, _⟩ => ⟨S128x8, .f32⟩
  | .hbm, ⟨27, _⟩ => ⟨S128x1, .f32⟩
  | .hbm, ⟨28, _⟩ => ⟨S64x128x9, .f32⟩
  | .local _ .vmem, ⟨0, _⟩ => ⟨S16x128x512, .f32⟩
  | .local _ .vmem, ⟨1, _⟩ => ⟨S16x128x512, .f32⟩
  | .local _ .vmem, ⟨2, _⟩ => ⟨S128x8, .f32⟩
  | .local _ .vmem, ⟨3, _⟩ => ⟨S128x8, .f32⟩
  | .local _ .vmem, ⟨4, _⟩ => ⟨S128x1, .f32⟩
  | .local _ .vmem, ⟨5, _⟩ => ⟨S16x128x9, .f32⟩
  | .local _ .vmem, ⟨6, _⟩ => ⟨S16x128x9, .f32⟩
  | .local _ .vmem, ⟨7, _⟩ => ⟨S16x128x9, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v192 : BitVec 1 := Scalar.cmpi .eq arg1 c7_i32
  let v193 : BitVec 32 := Scalar.extui v192
  let c0_i32_72 : BitVec 32 := 0#32
  let v194 : BitVec 1 := Scalar.cmpi .ne v193 c0_i32_72
  v194

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x128x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x128x64x64_S64x128x4096 : S64x128x64x64.ShapeCasts S64x128x4096
  slices_S128x8_S128x1_0_0 : S128x8.Slices ![0, 0] S128x1
  slices_S128x8_S128x7_0_0 : S128x8.Slices ![0, 0] S128x7
  slices_S128x8_S128x7_0_1 : S128x8.Slices ![0, 1] S128x7
  bcast_S_S128x7 : S_.BroadcastsInDim S128x7 (![] : Fin 0 → Fin S128x7.rank)
  concatenates_S128x1_S128x7_S128x8_d1 : Shape.Concatenates [S128x1, S128x7] S128x8 1
  shapeCasts_S128x1_S128 : S128x1.ShapeCasts S128
  slices_S128x8_S128x1_0_1 : S128x8.Slices ![0, 1] S128x1
  bcast_S_S128 : S_.BroadcastsInDim S128 (![] : Fin 0 → Fin S128.rank)
  bcast_S128_S128x1_0 : S128.BroadcastsInDim S128x1 (![0] : Fin 1 → Fin S128x1.rank)
  slices_S128x8_S128x1_0_7 : S128x8.Slices ![0, 7] S128x1
  inb_S16x128x9_S16x128x9_0_0_0 : ∀ a, (![0, 0, 0] : Fin 3 → Nat) a + S16x128x9.size a ≤ S16x128x9.size a
  h_S16x128x9 : 0 < S16x128x9.numel
  shapeCasts_S16x128x9_S16x128x9 : S16x128x9.ShapeCasts S16x128x9
  inb_S16x128x512_S16x128x512_0_0_0 : ∀ a, (![0, 0, 0] : Fin 3 → Nat) a + S16x128x512.size a ≤ S16x128x512.size a
  h_S16x128x512 : 0 < S16x128x512.numel
  shapeCasts_S16x128x512_S16x128x512 : S16x128x512.ShapeCasts S16x128x512
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  slices_S128x8_o0_0_S128x1 : S128x8.Slices ![0, 0] S128x1
  shapeCasts_S128_S1x128x1 : S128.ShapeCasts S1x128x1
  broadcasts_S1x128x1_S16x128x512 : S1x128x1.Broadcasts S16x128x512
  reduces_S16x128x512_S16x128 : S16x128x512.Reduces [2] S16x128
  shapeCasts_S16x128_S16x128x1 : S16x128.ShapeCasts S16x128x1
  inb_S16x128x9_S16x128x1_0_0_0 : ∀ a, (![0, 0, 0] : Fin 3 → Nat) a + S16x128x1.size a ≤ S16x128x9.size a
  h_S16x128x1 : 0 < S16x128x1.numel
  shapeCasts_S16x128x1_S16x128x1 : S16x128x1.ShapeCasts S16x128x1
  slices_S128x8_o0_1_S128x1 : S128x8.Slices ![0, 1] S128x1
  inb_S16x128x9_S16x128x1_0_0_1 : ∀ a, (![0, 0, 1] : Fin 3 → Nat) a + S16x128x1.size a ≤ S16x128x9.size a
  slices_S128x8_o0_2_S128x1 : S128x8.Slices ![0, 2] S128x1
  inb_S16x128x9_S16x128x1_0_0_2 : ∀ a, (![0, 0, 2] : Fin 3 → Nat) a + S16x128x1.size a ≤ S16x128x9.size a
  slices_S128x8_o0_3_S128x1 : S128x8.Slices ![0, 3] S128x1
  inb_S16x128x9_S16x128x1_0_0_3 : ∀ a, (![0, 0, 3] : Fin 3 → Nat) a + S16x128x1.size a ≤ S16x128x9.size a
  slices_S128x8_o0_4_S128x1 : S128x8.Slices ![0, 4] S128x1
  inb_S16x128x9_S16x128x1_0_0_4 : ∀ a, (![0, 0, 4] : Fin 3 → Nat) a + S16x128x1.size a ≤ S16x128x9.size a
  slices_S128x8_o0_5_S128x1 : S128x8.Slices ![0, 5] S128x1
  inb_S16x128x9_S16x128x1_0_0_5 : ∀ a, (![0, 0, 5] : Fin 3 → Nat) a + S16x128x1.size a ≤ S16x128x9.size a
  slices_S128x8_o0_6_S128x1 : S128x8.Slices ![0, 6] S128x1
  inb_S16x128x9_S16x128x1_0_0_6 : ∀ a, (![0, 0, 6] : Fin 3 → Nat) a + S16x128x1.size a ≤ S16x128x9.size a
  slices_S128x8_o0_7_S128x1 : S128x8.Slices ![0, 7] S128x1
  inb_S16x128x9_S16x128x1_0_0_7 : ∀ a, (![0, 0, 7] : Fin 3 → Nat) a + S16x128x1.size a ≤ S16x128x9.size a
  inb_S16x128x9_S16x128x1_0_0_8 : ∀ a, (![0, 0, 8] : Fin 3 → Nat) a + S16x128x1.size a ≤ S16x128x9.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x512.size a ≤ S64x128x4096.size a
  hwx0_0 : ∀ i : grid0.Coords, EltTy.bits .f32 = 32 ∨ (Rect.block (s := S64x128x4096) S16x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .f32 = 32 ∨ (Rect.block (s := S128x8) S128x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x9.size a ≤ S64x128x9.size a
  hwx0_4 : ∀ i : grid0.Coords, EltTy.bits .f32 = 32 ∨ (Rect.block (s := S64x128x9) S16x128x9.size (cc0_transform_4 i) (hinb0_4 i)).WholeWords (EltTy.packing .f32)

variable [Facts₀]

abbrev win0_0 : Pipeline.Window sig grid0 :=
  Pipeline.Window.ofSpec (Memref.whole main_v0) S16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S16x128x9.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x128x64x64 : Shape := ⟨4, ![64, 128, 64, 64]⟩
abbrev S128x8 : Shape := ⟨2, ![128, 8]⟩
abbrev S64x128x4096 : Shape := ⟨3, ![64, 128, 4096]⟩
abbrev S128x1 : Shape := ⟨2, ![128, 1]⟩
abbrev S128x7 : Shape := ⟨2, ![128, 7]⟩
abbrev S_ : Shape := ⟨0, ![]⟩
abbrev S128 : Shape := ⟨1, ![128]⟩
abbrev S64x128x1x4096 : Shape := ⟨4, ![64, 128, 1, 4096]⟩
abbrev S1x128x8x1 : Shape := ⟨4, ![1, 128, 8, 1]⟩
abbrev S64x128x8x4096 : Shape := ⟨4, ![64, 128, 8, 4096]⟩
abbrev S64x128x8 : Shape := ⟨3, ![64, 128, 8]⟩
abbrev S1x128x1 : Shape := ⟨3, ![1, 128, 1]⟩
abbrev S64x128 : Shape := ⟨2, ![64, 128]⟩
abbrev S64x128x1 : Shape := ⟨3, ![64, 128, 1]⟩
abbrev S64x128x9 : Shape := ⟨3, ![64, 128, 9]⟩

abbrev nBuf : Space → Nat
  | .hbm => 62
  | .vmem => 0
  | .smem => 0
  | _ => 0

abbrev bufTy : (tb : Table) → Fin (tcTables nBuf tb) → BufTy
  | .hbm, ⟨0, _⟩ => ⟨S64x128x64x64, .f32⟩
  | .hbm, ⟨1, _⟩ => ⟨S128x8, .f32⟩
  | .hbm, ⟨2, _⟩ => ⟨S64x128x4096, .f32⟩
  | .hbm, ⟨3, _⟩ => ⟨S128x1, .f32⟩
  | .hbm, ⟨4, _⟩ => ⟨S128x7, .f32⟩
  | .hbm, ⟨5, _⟩ => ⟨S128x7, .f32⟩
  | .hbm, ⟨6, _⟩ => ⟨S128x7, .f32⟩
  | .hbm, ⟨7, _⟩ => ⟨S_, .f32⟩
  | .hbm, ⟨8, _⟩ => ⟨S128x7, .f32⟩
  | .hbm, ⟨9, _⟩ => ⟨S128x7, .f32⟩
  | .hbm, ⟨10, _⟩ => ⟨S128x8, .f32⟩
  | .hbm, ⟨11, _⟩ => ⟨S128x1, .f32⟩
  | .hbm, ⟨12, _⟩ => ⟨S128, .f32⟩
  | .hbm, ⟨13, _⟩ => ⟨S128x1, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128x7, .f32⟩
  | .hbm, ⟨21, _⟩ => ⟨S128x7, .f32⟩
  | .hbm, ⟨22, _⟩ => ⟨S128x7, .f32⟩
  | .hbm, ⟨23, _⟩ => ⟨S_, .f32⟩
  | .hbm, ⟨24, _⟩ => ⟨S128x7, .f32⟩
  | .hbm, ⟨25, _⟩ => ⟨S128x7, .f32⟩
  | .hbm, ⟨26, _⟩ => ⟨S128x8, .f32⟩
  | .hbm, ⟨27, _⟩ => ⟨S64x128x1x4096, .f32⟩
  | .hbm, ⟨28, _⟩ => ⟨S1x128x8x1, .f32⟩
  | .hbm, ⟨29, _⟩ => ⟨S64x128x8x4096, .f32⟩
  | .hbm, ⟨30, _⟩ => ⟨S64x128x8x4096, .f32⟩
  | .hbm, ⟨31, _⟩ => ⟨S64x128x8x4096, .f32⟩
  | .hbm, ⟨32, _⟩ => ⟨S1x128x8x1, .f32⟩
  | .hbm, ⟨33, _⟩ => ⟨S64x128x8x4096, .f32⟩
  | .hbm, ⟨34, _⟩ => ⟨S64x128x8x4096, .f32⟩
  | .hbm, ⟨35, _⟩ => ⟨S_, .f32⟩
  | .hbm, ⟨36, _⟩ => ⟨S64x128x8x4096, .f32⟩
  | .hbm, ⟨37, _⟩ => ⟨S64x128x8x4096, .f32⟩
  | .hbm, ⟨38, _⟩ => ⟨S64x128x8x4096, .f32⟩
  | .hbm, ⟨39, _⟩ => ⟨S64x128x8x4096, .f32⟩
  | .hbm, ⟨40, _⟩ => ⟨S_, .f32⟩
  | .hbm, ⟨41, _⟩ => ⟨S64x128x8, .f32⟩
  | .hbm, ⟨42, _⟩ => ⟨S128x1, .f32⟩
  | .hbm, ⟨43, _⟩ => ⟨S128, .f32⟩
  | .hbm, ⟨44, _⟩ => ⟨S1x128x1, .f32⟩
  | .hbm, ⟨45, _⟩ => ⟨S64x128x4096, .f32⟩
  | .hbm, ⟨46, _⟩ => ⟨S64x128x4096, .f32⟩
  | .hbm, ⟨47, _⟩ => ⟨S_, .f32⟩
  | .hbm, ⟨48, _⟩ => ⟨S64x128x4096, .f32⟩
  | .hbm, ⟨49, _⟩ => ⟨S64x128x4096, .f32⟩
  | .hbm, ⟨50, _⟩ => ⟨S64x128x4096, .f32⟩
  | .hbm, ⟨51, _⟩ => ⟨S64x128x4096, .f32⟩
  | .hbm, ⟨52, _⟩ => ⟨S_, .f32⟩
  | .hbm, ⟨53, _⟩ => ⟨S64x128x4096, .f32⟩
  | .hbm, ⟨54, _⟩ => ⟨S64x128x4096, .f32⟩
  | .hbm, ⟨55, _⟩ => ⟨S_, .f32⟩
  | .hbm, ⟨56, _⟩ => ⟨S64x128x4096, .f32⟩
  | .hbm, ⟨57, _⟩ => ⟨S64x128x4096, .f32⟩
  | .hbm, ⟨58, _⟩ => ⟨S_, .f32⟩
  | .hbm, ⟨59, _⟩ => ⟨S64x128, .f32⟩
  | .hbm, ⟨60, _⟩ => ⟨S64x128x1, .f32⟩
  | .hbm, ⟨61, _⟩ => ⟨S64x128x9, .f32⟩
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_cst_6 : Ref sig .tc := ⟨.hbm, 55, rfl⟩
abbrev main_v46 : Ref sig .tc := ⟨.hbm, 56, rfl⟩
abbrev main_v47 : Ref sig .tc := ⟨.hbm, 57, rfl⟩
abbrev main_cst_7 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]

class Facts₀ : Prop where
  shapeCasts_S64x128x64x64_S64x128x4096 : S64x128x64x64.ShapeCasts S64x128x4096
  slices_S128x8_S128x1_0_0 : S128x8.Slices ![0, 0] S128x1
  slices_S128x8_S128x7_0_0 : S128x8.Slices ![0, 0] S128x7
  slices_S128x8_S128x7_0_1 : S128x8.Slices ![0, 1] S128x7
  bcast_S_S128x7 : S_.BroadcastsInDim S128x7 (![] : Fin 0 → Fin S128x7.rank)
  concatenates_S128x1_S128x7_S128x8_d1 : Shape.Concatenates [S128x1, S128x7] S128x8 1
  shapeCasts_S128x1_S128 : S128x1.ShapeCasts S128
  slices_S128x8_S128x1_0_1 : S128x8.Slices ![0, 1] S128x1
  bcast_S_S128 : S_.BroadcastsInDim S128 (![] : Fin 0 → Fin S128.rank)
  bcast_S128_S128x1_0 : S128.BroadcastsInDim S128x1 (![0] : Fin 1 → Fin S128x1.rank)
  bcast_S64x128x4096_S64x128x1x4096_0_1_3 : S64x128x4096.BroadcastsInDim S64x128x1x4096 (![0, 1, 3] : Fin 3 → Fin S64x128x1x4096.rank)
  bcast_S128x8_S1x128x8x1_1_2 : S128x8.BroadcastsInDim S1x128x8x1 (![1, 2] : Fin 2 → Fin S1x128x8x1.rank)
  bcast_S64x128x1x4096_S64x128x8x4096_0_1_2_3 : S64x128x1x4096.BroadcastsInDim S64x128x8x4096 (![0, 1, 2, 3] : Fin 4 → Fin S64x128x8x4096.rank)
  bcast_S1x128x8x1_S64x128x8x4096_0_1_2_3 : S1x128x8x1.BroadcastsInDim S64x128x8x4096 (![0, 1, 2, 3] : Fin 4 → Fin S64x128x8x4096.rank)
  bcast_S_S64x128x8x4096 : S_.BroadcastsInDim S64x128x8x4096 (![] : Fin 0 → Fin S64x128x8x4096.rank)
  reducesTo_S64x128x8x4096_S64x128x8_d3 : S64x128x8x4096.ReducesTo [3] S64x128x8
  h_S_ : 0 < S_.numel
  slices_S128x8_S128x1_0_7 : S128x8.Slices ![0, 7] S128x1
  bcast_S128_S1x128x1_1 : S128.BroadcastsInDim S1x128x1 (![1] : Fin 1 → Fin S1x128x1.rank)
  bcast_S1x128x1_S64x128x4096_0_1_2 : S1x128x1.BroadcastsInDim S64x128x4096 (![0, 1, 2] : Fin 3 → Fin S64x128x4096.rank)
  bcast_S_S64x128x4096 : S_.BroadcastsInDim S64x128x4096 (![] : Fin 0 → Fin S64x128x4096.rank)
  reducesTo_S64x128x4096_S64x128_d2 : S64x128x4096.ReducesTo [2] S64x128
  bcast_S64x128_S64x128x1_0_1 : S64x128.BroadcastsInDim S64x128x1 (![0, 1] : Fin 2 → Fin S64x128x1.rank)
  concatenates_S64x128x8_S64x128x1_S64x128x9_d2 : Shape.Concatenates [S64x128x8, S64x128x1] S64x128x9 2

variable [Facts₀]

class Facts : Prop extends Facts₀ where

variable [Facts]
-- ==== Proof.LibTileSum.lean ====
/-
  Sums cut into tiles, over any additive commutative monoid: no subtraction and no cancellation is used, so every
  statement holds where infinite values are allowed.

  A sum over K·T consecutive indices is the sum over K tiles of the T terms of each tile; an accumulator that starts
  from zero and adds one tile's sum per step holds, after step n, the sum of tiles 0 … n.  Together, at 8 tiles of
  1024: the accumulator after the eighth tile is the sum over all 8192 indices.
-/
import Mathlib.Algebra.BigOperators.Fin

namespace Cert.TileSum

variable {M : Type*} [AddCommMonoid M]

/-- Position q of tile j, tiles of T, lies below K·T when j is below K:
    j·T + q < j·T + T = (j + 1)·T ≤ K·T. -/
theorem tile_lt {K T : ℕ} (j : Fin K) (q : Fin T) : j.val * T + q.val < K * T :=
  calc j.val * T + q.val < j.val * T + T := Nat.add_lt_add_left q.isLt _
    _ = (j.val + 1) * T := (Nat.succ_mul _ _).symm
    _ ≤ K * T := Nat.mul_le_mul_right _ j.isLt

/-- A running total over tiles is the sum of the tiles, when the recurrence is known only for the tiles below a
    bound N: if A 0 is 0 plus tile 0's sum and, for j + 1 < N, A (j + 1) is A j plus tile (j + 1)'s sum, then for
    n < N, A n is the double sum over the tiles 0 … n. -/
theorem running_total_below {T : ℕ} (N : ℕ) (g : ℕ → Fin T → M) (A : ℕ → M)
    (h0 : A 0 = 0 + ∑ q, g 0 q) (hs : ∀ j, j + 1 < N → A (j + 1) = A j + ∑ q, g (j + 1) q) (n : ℕ) (hn : n < N) :
    A n = ∑ j ∈ Finset.range (n + 1), ∑ q, g j q := by
  induction n with
  | zero => rw [h0, zero_add, Finset.sum_range_one]
  | succ n ih =>
    rw [hs n hn, ih (Nat.lt_of_succ_lt hn)]
    exact (Finset.sum_range_succ (fun j => ∑ q, g j q) (n + 1)).symm

/-- A running total over tiles is the sum of the tiles: if A 0 is 0 plus tile 0's sum and each later A is the
    previous plus that tile's sum, A n is the double sum up to n. -/
theorem running_total {T : ℕ} (g : ℕ → Fin T → M) (A : ℕ → M)
    (h0 : A 0 = 0 + ∑ q, g 0 q) (hs : ∀ j, A (j + 1) = A j + ∑ q, g (j + 1) q) (n : ℕ) :
    A n = ∑ j ∈ Finset.range (n + 1), ∑ q, g j q :=
  running_total_below (n + 1) g A h0 (fun j _ => hs j) n (Nat.lt_succ_self n)

/-- A sum over K·T consecutive indices is the sum over K tiles of T: index j·T + q is position q of tile j, and
    (j, q) ↦ j·T + q is a bijection from pairs onto the indices below K·T. -/
theorem sum_tiles (K T : ℕ) (f : Fin (K * T) → M) :
    ∑ n, f n = ∑ j : Fin K, ∑ q : Fin T, f ⟨j.val * T + q.val, tile_lt j q⟩ := by
  rw [← Equiv.sum_comp finProdFinEquiv f, Fintype.sum_prod_type]
  refine Finset.sum_congr rfl fun j _ => Finset.sum_congr rfl fun q _ => congrArg f (Fin.ext ?_)
  rw [finProdFinEquiv_apply_val, Nat.mul_comm, Nat.add_comm]

/-- Tile j of a function on 8192 indices, by position in the tile; zero from the ninth tile on. -/
def tile8 (f : Fin 8192 → M) (j : ℕ) (q : Fin 1024) : M :=
  if h : j < 8 then f ⟨j * 1024 + q.val, by omega⟩ else 0

/-- Below the ninth tile it is the function at index j·1024 + q. -/
theorem tile8_of_lt (f : Fin 8192 → M) (j : ℕ) (hj : j < 8) (q : Fin 1024) :
    tile8 f j q = f ⟨j * 1024 + q.val, by omega⟩ := dif_pos hj

/-- The two together at 8 tiles of 1024: the accumulator after the eighth tile is the sum over all 8192. -/
theorem acc_eight (f : Fin 8192 → M) (A : ℕ → M)
    (h0 : A 0 = 0 + ∑ q : Fin 1024, f ⟨0 * 1024 + q.val, by omega⟩)
    (hs : ∀ j, (hj : j + 1 < 8) → A (j + 1) = A j + ∑ q : Fin 1024, f ⟨(j + 1) * 1024 + q.val, by omega⟩) :
    A 7 = ∑ n : Fin 8192, f n := by
  have e0 : A 0 = 0 + ∑ q, tile8 f 0 q :=
    h0.trans (congrArg (0 + ·) (Finset.sum_congr rfl fun q _ => (tile8_of_lt f 0 (by omega) q).symm))
  have es : ∀ j, j + 1 < 8 → A (j + 1) = A j + ∑ q, tile8 f (j + 1) q := fun j hj =>
    (hs j hj).trans (congrArg (A j + ·) (Finset.sum_congr rfl fun q _ => (tile8_of_lt f (j + 1) hj q).symm))
  refine (running_total_below 8 (tile8 f) A e0 es 7 (by omega)).trans ?_
  refine Eq.trans ?_ (sum_tiles 8 1024 f).symm
  refine (Fin.sum_univ_eq_sum_range (fun j => ∑ q, tile8 f j q) 8).symm.trans ?_
  exact Finset.sum_congr rfl fun j _ => Finset.sum_congr rfl fun q _ => tile8_of_lt f j.val j.isLt q

end Cert.TileSum
-- ==== Proof.HistSpec.lean ====
/-
  A soft histogram of the samples of each (image, channel) pair.  For a channel c with bin centres M c j and widths
  S c j (j = 0 … 7) and last edge L c, a sample x weighs

      exp ((-1/2 · z) · z),  z = (x - M c j) / S c j      in Gaussian bin j,
      1 / (1 + exp (-(20 · (x - L c))))                   in the ninth bin (a steep sigmoid above the last edge),

  and bin j of (image b, channel c) is the sum of the weights of that pair's 4096 samples.

  The same number is reached by cutting the 4096 samples into 8 consecutive tiles of 512, summing each tile, and
  adding the tile sums one after the other to a total that starts at zero: only commutativity and associativity of
  addition are used, so the identity holds on the extended reals, infinite weights included.
-/
import Idealize.ShloMosaic.PureOps.Ideal
import Idealize.ShloMosaic.PureOps.Ideal.Laws
import Idealize.ShloMosaic.Lib.ValueIdx
import proofs.«161803_j42425686950254_1_alg».proof.Proof.LibTileSum

noncomputable section

namespace Cert.Hist

open Idealize.ShloMosaic Idealize.ShloMosaic.ValueIdx

/-- The Gaussian weight of a sample x for centre mu and width sg: exp ((-1/2 · z) · z) with z = (x - mu) / sg. -/
def gaussW (x mu sg : EReal) : EReal :=
  Ideal.exp ((Ideal.ofBits .f32 0xBF000000#32 * Ideal.div (x - mu) sg) * Ideal.div (x - mu) sg)

/-- The weight of a sample x above the last edge l: the logistic function of 20 · (x - l). -/
def sigmW (x l : EReal) : EReal :=
  Ideal.logistic (Ideal.ofBits .f32 0x41A00000#32 * (x - l))

/-- The weight of a sample x of channel c in bin j: Gaussian for the bins 0 … 7, the sigmoid for bin 8. -/
def weight (M S : (⟨2, ![128, 8]⟩ : Shape).Idx → EReal) (L : (⟨2, ![128, 1]⟩ : Shape).Idx → EReal)
    (c : Fin 128) (j : Fin 9) (x : EReal) : EReal :=
  if h : j.val < 8 then gaussW x (M (ix2 c ⟨j.val, h⟩)) (S (ix2 c ⟨j.val, h⟩)) else sigmW x (L (ix2 c 0))

/-- THE HISTOGRAM: bin j of (image b, channel c) is the sum of the weights of the pair's 4096 samples. -/
def hist (X : (⟨3, ![64, 128, 4096]⟩ : Shape).Idx → EReal) (M S : (⟨2, ![128, 8]⟩ : Shape).Idx → EReal)
    (L : (⟨2, ![128, 1]⟩ : Shape).Idx → EReal) : (⟨3, ![64, 128, 9]⟩ : Shape).Idx → EReal :=
  fun i => ∑ q : Fin 4096, weight M S L (i 1) (i 2) (X (ix3 (i 0) (i 1) q))

/-- ONE TILE's contribution to a block of 16 images: bin j of (image b of the block, channel c) gets the sum of the
    weights of the tile's 512 samples of that pair. -/
def tileSum (x : (⟨3, ![16, 128, 512]⟩ : Shape).Idx → EReal) (M S : (⟨2, ![128, 8]⟩ : Shape).Idx → EReal)
    (L : (⟨2, ![128, 1]⟩ : Shape).Idx → EReal) : (⟨3, ![16, 128, 9]⟩ : Shape).Idx → EReal :=
  fun y => ∑ l : Fin 512, weight M S L (y 1) (y 2) (x (ix3 (y 0) (y 1) l))

/-- Eight tile sums added one after the other to zero are the sum over all 4096 samples: sample 512·s + l is
    sample l of tile s. -/
theorem eight_tiles (f : Fin 4096 → EReal) :
    (0 : EReal) + ∑ s ∈ Finset.range 8, (if h : s < 8 then ∑ l : Fin 512, f ⟨s * 512 + l.val, by omega⟩ else 0)
      = ∑ q : Fin 4096, f q := by
  rw [zero_add, Cert.TileSum.sum_tiles 8 512 f, ← Fin.sum_univ_eq_sum_range]
  exact Finset.sum_congr rfl fun s _ => by rw [dif_pos s.isLt]

end Cert.Hist

end
-- ==== Proof.HistStep.lean ====
/-
  One tile's update of one bin column, read at an index.

  The block of samples is x : [16, 128, 512] (16 images, 128 channels, 512 samples of the tile); a bin's centre and
  width are rows mu, sg : [1, 128, 1] (one number per channel); the column of the running totals is acc : [16, 128, 1].
  The update adds to acc (b, c) the sum over the tile's 512 samples of the sample's weight in the bin:

      acc (b, c) + Σ_l gaussW (x (b, c, l)) (mu c) (sg c)        a Gaussian bin,
      acc (b, c) + Σ_l sigmW  (x (b, c, l)) (last c)             the bin above the last edge.

  Everything here is a reading of array operations at an index: a broadcast of a per-channel row over images and
  samples reads the row at the channel; a sum along the sample axis is a finite sum; reshapes that only add or drop
  axes of extent one keep the element.
-/
import proofs.«161803_j42425686950254_1_alg».proof.Proof.Gen.KernelIdeal.Skeleton
import proofs.«161803_j42425686950254_1_alg».proof.Proof.HistSpec
import Idealize.ShloMosaic.Lib.Pipeline.Value
import Idealize.ShloMosaic.Lib.ValueIdx
import Idealize.ShloMosaic.PureOps.Ideal.Laws

noncomputable section

namespace Cert.KernelIdeal.HistStep

open Cert.KernelIdeal Cert.KernelIdeal.Gen Idealize.ShloMosaic Idealize.ShloMosaic.ValueIdx Cert.Hist

/-- A per-channel column [128, 1] laid out as a row [1, 128, 1] (through the vector [128]). -/
def rowOfCol (v : FVec Ideal S128x1 .f32) : FVec Ideal S1x128x1 .f32 :=
  shapeCast S1x128x1 (shapeCast S128 v shapeCasts_S128x1_S128) shapeCasts_S128_S1x128x1

/-- It holds, at channel c, the column's entry for c. -/
theorem rowOfCol_apply (v : FVec Ideal S128x1 .f32) (a : Fin 1) (c : Fin 128) (z : Fin 1) :
    rowOfCol v (ix3 a c z) = v (ix2 c 0) := by
  have ha : a.val = 0 := by have := a.isLt; omega
  have hz : z.val = 0 := by have := z.isLt; omega
  unfold rowOfCol
  rw [shapeCast_apply _ shapeCasts_S128_S1x128x1 (ix3 a c z) (ix1 c)
      (by rw [Shape.rowMajor_val_one, Shape.rowMajor_val_three]
          show c.val = (a.val * 128 + c.val) * 1 + z.val
          omega),
    shapeCast_apply _ shapeCasts_S128x1_S128 (ix1 c) (ix2 c 0)
      (by rw [Shape.rowMajor_val_two, Shape.rowMajor_val_one]
          show c.val * 1 + 0 = c.val
          omega)]

/-- A column [128, 1] reshaped directly to a row [1, 128, 1] holds, at channel c, the column's entry for c. -/
theorem rowCast_apply (v : FVec Ideal S128x1 .f32) (a : Fin 1) (c : Fin 128) (z : Fin 1) :
    shapeCast S1x128x1 v shapeCasts_S128x1_S1x128x1 (ix3 a c z) = v (ix2 c 0) := by
  have ha : a.val = 0 := by have := a.isLt; omega
  have hz : z.val = 0 := by have := z.isLt; omega
  exact shapeCast_apply _ shapeCasts_S128x1_S1x128x1 (ix3 a c z) (ix2 c 0)
      (by rw [Shape.rowMajor_val_two, Shape.rowMajor_val_three]
          show c.val * 1 + 0 = (a.val * 128 + c.val) * 1 + z.val
          omega)

/-- A per-channel row broadcast over images and samples reads the row at the channel. -/
theorem bcastRow_apply (r : FVec Ideal S1x128x1 .f32) (b : Fin 16) (c : Fin 128) (l : Fin 512) :
    broadcastTo S16x128x512 r broadcasts_S1x128x1_S16x128x512 (ix3 b c l) = r (ix3 0 c 0) :=
  broadcastTo_apply r broadcasts_S1x128x1_S16x128x512 (ix3 b c l) (ix3 0 c 0) (fun a => by
    match a with
    | ⟨0, _⟩ => rfl
    | ⟨1, _⟩ => rfl
    | ⟨2, _⟩ => rfl)

/-- The sum along the sample axis of a block, kept as a column [16, 128, 1]: at (b, c) the finite sum over the 512
    samples. -/
theorem laneSumCol_apply (w : FVec Ideal S16x128x512 .f32) (hφ : FKind.Formats .f32)
    (hacc : (0x00000000#32 : BitVec 32) = 0x00000000#32) (b : Fin 16) (c : Fin 128) (z : Fin 1) :
    shapeCast S16x128x1 (multiReduction .add [2] S16x128 w 0x00000000#32 reduces_S16x128x512_S16x128 hφ hacc)
      shapeCasts_S16x128_S16x128x1 (ix3 b c z) = ∑ l : Fin 512, w (ix3 b c l) := by
  have hz : z.val = 0 := by have := z.isLt; omega
  refine (shapeCast_apply _ shapeCasts_S16x128_S16x128x1 (ix3 b c z) (ix2 b c)
      (by rw [Shape.rowMajor_val_two, Shape.rowMajor_val_three]
          show b.val * 128 + c.val = (b.val * 128 + c.val) * 1 + z.val
          omega)).trans ?_
  refine (Ideal.multiReduction_add_single w 0x00000000#32 reduces_S16x128x512_S16x128 hφ hacc (ix2 b c)).trans ?_
  refine Finset.sum_congr rfl fun l _ => congrArg w ?_
  funext a
  apply Fin.ext
  match a with
  | ⟨0, _⟩ => rfl
  | ⟨1, _⟩ => rfl
  | ⟨2, _⟩ => rfl

/-! ## Column j of a parameter block -/

/-- Column `off 1` of a [128, 8] parameter block, as a per-channel row [1, 128, 1]. -/
def colRow (v : FVec Ideal S128x8 .f32) (off : Fin 2 → ℕ) (h : S128x8.Slices off S128x1) : FVec Ideal S1x128x1 .f32 :=
  rowOfCol (extractStridedSlice S128x1 off v h)

/-- It holds, at channel c, the block's entry (c, j). -/
theorem colRow_apply (v : FVec Ideal S128x8 .f32) (j : Fin 8) (off : Fin 2 → ℕ) (hoff : off = ![0, j.val])
    (h : S128x8.Slices off S128x1) (a : Fin 1) (c : Fin 128) (z : Fin 1) :
    colRow v off h (ix3 a c z) = v (ix2 c j) := by
  subst hoff
  unfold colRow
  rw [rowOfCol_apply]
  exact extractStridedSlice_apply _ v h (ix2 c 0) (ix2 c j) (fun a => by
    match a with
    | ⟨0, _⟩ => show c.val = 0 + c.val; omega
    | ⟨1, _⟩ => show j.val = j.val + 0; omega)

/-! ## The two kinds of step -/

/-- A Gaussian bin's step on a tile: acc + Σ_samples exp ((-1/2 · z) · z), z = (x - mu) / sg, as array operations. -/
def gaussStep (xv : FVec Ideal S16x128x512 .f32) (muv sgv : FVec Ideal S1x128x1 .f32) (acc : Vec Ideal S16x128x1 .f32) :
    FVec Ideal S16x128x1 .f32 :=
  shapeCast S16x128x1
    (addf acc
      (shapeCast S16x128x1
        (multiReduction .add [2] S16x128
          (exp (mulf (mulf (broadcast S16x128x512 (Scalar.ofBits .f32 0xBF000000#32))
                  (divf (subf xv (broadcastTo S16x128x512 muv broadcasts_S1x128x1_S16x128x512))
                    (broadcastTo S16x128x512 sgv broadcasts_S1x128x1_S16x128x512)))
                (divf (subf xv (broadcastTo S16x128x512 muv broadcasts_S1x128x1_S16x128x512))
                  (broadcastTo S16x128x512 sgv broadcasts_S1x128x1_S16x128x512))))
          0x00000000#32 reduces_S16x128x512_S16x128 (.inl rfl) rfl)
        shapeCasts_S16x128_S16x128x1))
    shapeCasts_S16x128x1_S16x128x1

/-- At (b, c): the total before plus the tile's Gaussian weights of that image and channel. -/
theorem gaussStep_apply (xv : FVec Ideal S16x128x512 .f32) (muv sgv : FVec Ideal S1x128x1 .f32)
    (acc : Vec Ideal S16x128x1 .f32) (b : Fin 16) (c : Fin 128) (z : Fin 1) :
    gaussStep xv muv sgv acc (ix3 b c z)
      = acc (ix3 b c z) + ∑ l : Fin 512, gaussW (xv (ix3 b c l)) (muv (ix3 0 c 0)) (sgv (ix3 0 c 0)) := by
  unfold gaussStep
  rw [shapeCast_self]
  refine (addf_apply _ _ _).trans (congrArg (acc (ix3 b c z) + ·) ?_)
  refine (laneSumCol_apply _ _ _ b c z).trans (Finset.sum_congr rfl fun l _ => ?_)
  have hD : divf (subf xv (broadcastTo S16x128x512 muv broadcasts_S1x128x1_S16x128x512))
        (broadcastTo S16x128x512 sgv broadcasts_S1x128x1_S16x128x512) (ix3 b c l)
      = Ideal.div (xv (ix3 b c l) - muv (ix3 0 c 0)) (sgv (ix3 0 c 0)) := by
    rw [divf_apply, subf_apply, bcastRow_apply, bcastRow_apply]
  unfold gaussW
  rw [← hD]
  rfl

/-- The last bin's step on a tile: acc + Σ_samples logistic (20 · (x - last)), as array operations. -/
def sigmStep (xv : FVec Ideal S16x128x512 .f32) (lastv : FVec Ideal S1x128x1 .f32) (acc : Vec Ideal S16x128x1 .f32) :
    FVec Ideal S16x128x1 .f32 :=
  shapeCast S16x128x1
    (addf acc
      (shapeCast S16x128x1
        (multiReduction .add [2] S16x128
          (logistic (mulf (broadcast S16x128x512 (Scalar.ofBits .f32 0x41A00000#32))
            (subf xv (broadcastTo S16x128x512 lastv broadcasts_S1x128x1_S16x128x512))))
          0x00000000#32 reduces_S16x128x512_S16x128 (.inl rfl) rfl)
        shapeCasts_S16x128_S16x128x1))
    shapeCasts_S16x128x1_S16x128x1

/-- At (b, c): the total before plus the tile's sigmoid weights of that image and channel. -/
theorem sigmStep_apply (xv : FVec Ideal S16x128x512 .f32) (lastv : FVec Ideal S1x128x1 .f32)
    (acc : Vec Ideal S16x128x1 .f32) (b : Fin 16) (c : Fin 128) (z : Fin 1) :
    sigmStep xv lastv acc (ix3 b c z)
      = acc (ix3 b c z) + ∑ l : Fin 512, sigmW (xv (ix3 b c l)) (lastv (ix3 0 c 0)) := by
  unfold sigmStep
  rw [shapeCast_self]
  refine (addf_apply _ _ _).trans (congrArg (acc (ix3 b c z) + ·) ?_)
  refine (laneSumCol_apply _ _ _ b c z).trans (Finset.sum_congr rfl fun l _ => ?_)
  have hD : subf xv (broadcastTo S16x128x512 lastv broadcasts_S1x128x1_S16x128x512) (ix3 b c l)
      = xv (ix3 b c l) - lastv (ix3 0 c 0) := by
    rw [subf_apply, bcastRow_apply]
  unfold sigmW
  rw [← hD]
  rfl

/-! ## Bin j's step in terms of the weight -/

/-- Gaussian bin j (j < 8) with centre and width taken as column j of the two parameter blocks. -/
theorem gaussBin_apply (x0 : FVec Ideal S16x128x512 .f32) (x1 x2 : FVec Ideal S128x8 .f32) (x3 : FVec Ideal S128x1 .f32)
    (acc : Vec Ideal S16x128x1 .f32) (j : Fin 8) (off : Fin 2 → ℕ) (hoff : off = ![0, j.val])
    (h h' : S128x8.Slices off S128x1) (b : Fin 16) (c : Fin 128) (z : Fin 1) :
    gaussStep x0 (colRow x1 off h) (colRow x2 off h') acc (ix3 b c z)
      = acc (ix3 b c z) + ∑ l : Fin 512, weight x1 x2 x3 c ⟨j.val, by omega⟩ (x0 (ix3 b c l)) := by
  rw [gaussStep_apply, colRow_apply x1 j off hoff, colRow_apply x2 j off hoff]
  refine congrArg (acc (ix3 b c z) + ·) (Finset.sum_congr rfl fun l _ => ?_)
  unfold weight
  rw [dif_pos (show ((⟨j.val, by omega⟩ : Fin 9)).val < 8 from j.isLt)]

/-- The ninth bin with the last edge as a [128, 1] column. -/
theorem sigmBin_apply (x0 : FVec Ideal S16x128x512 .f32) (x1 x2 : FVec Ideal S128x8 .f32) (x3 : FVec Ideal S128x1 .f32)
    (acc : Vec Ideal S16x128x1 .f32) (b : Fin 16) (c : Fin 128) (z : Fin 1) :
    sigmStep x0 (shapeCast S1x128x1 x3 shapeCasts_S128x1_S1x128x1) acc (ix3 b c z)
      = acc (ix3 b c z) + ∑ l : Fin 512, weight x1 x2 x3 c ⟨8, by omega⟩ (x0 (ix3 b c l)) := by
  rw [sigmStep_apply, rowCast_apply]
  refine congrArg (acc (ix3 b c z) + ·) (Finset.sum_congr rfl fun l _ => ?_)
  unfold weight
  rw [dif_neg (show ¬ ((⟨8, by omega⟩ : Fin 9)).val < 8 from by decide)]

end Cert.KernelIdeal.HistStep

end
-- ==== Proof.HistPieces.lean ====
/-
  What one grid point does to the running totals.

  The totals live in a [16, 128, 9] buffer: 16 images, 128 channels, 9 bins.  At a grid point the body rewrites the
  buffer one bin column at a time, nine stores of a [16, 128, 1] column each; column j becomes the column before plus
  the tile's weights of bin j, summed over the tile's 512 samples.  Read back as one array, the nine columns are

      after (b, c, j) = before (b, c, j) + Σ_l weight c j (x (b, c, l))   =  before + tileSum x .

  At the first tile of a block of images the body first fills the buffer with zeros, so "before" is zero there; at the
  last tile it also copies the buffer, after the update, into the output block.
-/
import proofs.«161803_j42425686950254_1_alg».proof.Proof.Gen.KernelIdeal.Frame
import proofs.«161803_j42425686950254_1_alg».proof.Proof.HistStep
import Idealize.ShloMosaic.Lib.Pipeline.Value
import Idealize.ShloMosaic.Lib.Pipeline.CanonAppend
import Idealize.ShloMosaic.Lib.Tactic

set_option maxRecDepth 16384

noncomputable section

namespace Cert.KernelIdeal.HistPieces

open Cert.KernelIdeal Cert.KernelIdeal.Gen Idealize.ShloMosaic Idealize.ShloMosaic.TcCoe Idealize.SL.Sem
open Idealize.ShloMosaic.ValueIdx Cert.Hist Cert.KernelIdeal.HistStep

theorem hz3 : (![0, 0, 0] : Fin 3 → Nat) = fun _ => 0 := funext fun a => by fin_cases a <;> rfl
theorem hz2 : (![0, 0] : Fin 2 → Nat) = fun _ => 0 := funext fun a => by fin_cases a <;> rfl

/-- The zero of the extended reals, as the f32 word of +0.0. -/
abbrev zeroW : EReal := Ideal.ofBits .f32 0x00000000#32

/-! ## Reshapes to the same shape change nothing -/

theorem pay4_eq (v : Vec Ideal S16x128x512 .f32) : k0_pay4 (F := Ideal) v = v := shapeCast_self _ _
theorem pay5_eq (v : Vec Ideal S128x8 .f32) : k0_pay5 (F := Ideal) v = v := shapeCast_self _ _
theorem pay6_eq (v : Vec Ideal S128x8 .f32) : k0_pay6 (F := Ideal) v = v := shapeCast_self _ _
theorem pay7_eq (v : Vec Ideal S128x1 .f32) :
    k0_pay7 (F := Ideal) v = shapeCast S1x128x1 v shapeCasts_S128x1_S1x128x1 := by
  unfold k0_pay7; rw [shapeCast_self]
theorem pay3_apply (y : S16x128x9.Idx) : k0_pay3 (F := Ideal) y = zeroW := by
  unfold k0_pay3; rw [shapeCast_self]; rfl

/-! ## Column j of the buffer -/

/-- Local index (b, c, 0) of the column store at bin j is the buffer's index (b, c, j). -/
theorem colEmb (j : ℕ) (hj : j < 9) (inb : ∀ a, (![0, 0, j] : Fin 3 → ℕ) a + (![16, 128, 1] : Fin 3 → ℕ) a ≤ S16x128x9.size a)
    (b : Fin 16) (c : Fin 128) (z : Fin 1) :
    (Rect.unit (s := S16x128x9) ![0, 0, j] ![16, 128, 1] inb).emb (ix3 b c z) = ix3 b c ⟨j, hj⟩ := by
  have hz : z.val = 0 := by have := z.isLt; omega
  funext a
  apply Fin.ext
  match a with
  | ⟨0, _⟩ => show 0 + 1 * b.val = b.val; omega
  | ⟨1, _⟩ => show 0 + 1 * c.val = c.val; omega
  | ⟨2, _⟩ => show j + 1 * z.val = j; omega

/-- A column store whose payload is "before + T" at its bin agrees with the array "before + T". -/
theorem col_agrees (j : ℕ) (hj : j < 9) (inb : ∀ a, (![0, 0, j] : Fin 3 → ℕ) a + (![16, 128, 1] : Fin 3 → ℕ) a ≤ S16x128x9.size a)
    (w : S16x128x1.Idx → EReal) (before T : S16x128x9.Idx → EReal)
    (hw : ∀ b c z, w (ix3 b c z) = before (ix3 b c ⟨j, hj⟩) + T (ix3 b c ⟨j, hj⟩)) :
    ∀ x : S16x128x1.Idx, w x = (fun y => before y + T y) ((Rect.unit (s := S16x128x9) ![0, 0, j] ![16, 128, 1] inb).emb x) := by
  intro x
  obtain ⟨b, c, z, rfl⟩ : ∃ (b : Fin 16) (c : Fin 128) (z : Fin 1), x = ix3 b c z := ⟨x 0, x 1, x 2, eq_ix3 x⟩
  rw [colEmb j hj inb b c z]
  exact hw b c z

/-! ## The nine column stores -/

/-- The nine stores of a grid point, newest first, over the loaded blocks x0 (samples), x1 (centres), x2 (widths),
    x3 (last edge) and the nine columns A0 … A8 of the buffer as the body read them. -/
def ninePieces (x0 : Vec Ideal S16x128x512 .f32) (x1 x2 : Vec Ideal S128x8 .f32) (x3 : Vec Ideal S128x1 .f32)
    (A0 A1 A2 A3 A4 A5 A6 A7 A8 : Vec Ideal S16x128x1 .f32) : List (View.Piece (Elt Ideal) S16x128x9 .f32) :=
  [⟨Rect.unit ![0, 0, 8] ![16, 128, 1] inb_S16x128x9_S16x128x1_0_0_8, k0_pay2 x0 (k0_pay7 x3) A8⟩,
   ⟨Rect.unit ![0, 0, 7] ![16, 128, 1] inb_S16x128x9_S16x128x1_0_0_7, k0_pay1 x0 (k0_pay21 x1) (k0_pay22 x2) A7⟩,
   ⟨Rect.unit ![0, 0, 6] ![16, 128, 1] inb_S16x128x9_S16x128x1_0_0_6, k0_pay20 x0 x1 x2 A6⟩,
   ⟨Rect.unit ![0, 0, 5] ![16, 128, 1] inb_S16x128x9_S16x128x1_0_0_5, k0_pay19 x0 (k0_pay17 x1) (k0_pay18 x2) A5⟩,
   ⟨Rect.unit ![0, 0, 4] ![16, 128, 1] inb_S16x128x9_S16x128x1_0_0_4, k0_pay16 x0 x1 x2 A4⟩,
   ⟨Rect.unit ![0, 0, 3] ![16, 128, 1] inb_S16x128x9_S16x128x1_0_0_3, k0_pay15 x0 (k0_pay13 x1) (k0_pay14 x2) A3⟩,
   ⟨Rect.unit ![0, 0, 2] ![16, 128, 1] inb_S16x128x9_S16x128x1_0_0_2, k0_pay12 x0 x1 x2 A2⟩,
   ⟨Rect.unit ![0, 0, 1] ![16, 128, 1] inb_S16x128x9_S16x128x1_0_0_1, k0_pay11 x0 (k0_pay9 x1) (k0_pay10 x2) A1⟩,
   ⟨Rect.unit ![0, 0, 0] ![16, 128, 1] inb_S16x128x9_S16x128x1_0_0_0, k0_pay8 x0 x1 x2 A0⟩]

/-- They tile the buffer, so every index lies in one of them. -/
theorem nine_cover (x0 : Vec Ideal S16x128x512 .f32) (x1 x2 : Vec Ideal S128x8 .f32) (x3 : Vec Ideal S128x1 .f32)
    (A0 A1 A2 A3 A4 A5 A6 A7 A8 : Vec Ideal S16x128x1 .f32) (y : S16x128x9.Idx) :
    ∃ p ∈ ninePieces x0 x1 x2 x3 A0 A1 A2 A3 A4 A5 A6 A7 A8, y ∈ p.1.set :=
  View.cover_of_tiledL (ninePieces x0 x1 x2 x3 A0 A1 A2 A3 A4 A5 A6 A7 A8) S16x128x1.size (by sl_kernel_rfl) y

/-! ## Each store's payload is a bin's step -/

theorem pay0_step (x0 : Vec Ideal S16x128x512 .f32) (x1 x2 : Vec Ideal S128x8 .f32) (A : Vec Ideal S16x128x1 .f32) :
    k0_pay8 (F := Ideal) x0 x1 x2 A
      = gaussStep (k0_pay4 x0) (colRow (k0_pay5 x1) ![0, 0] slices_S128x8_o0_0_S128x1) (colRow (k0_pay6 x2) ![0, 0] slices_S128x8_o0_0_S128x1) A := rfl
theorem pay2_step (x0 : Vec Ideal S16x128x512 .f32) (x1 x2 : Vec Ideal S128x8 .f32) (A : Vec Ideal S16x128x1 .f32) :
    k0_pay12 (F := Ideal) x0 x1 x2 A = gaussStep x0 (colRow x1 ![0, 2] slices_S128x8_o0_2_S128x1) (colRow x2 ![0, 2] slices_S128x8_o0_2_S128x1) A := rfl
theorem pay4_step (x0 : Vec Ideal S16x128x512 .f32) (x1 x2 : Vec Ideal S128x8 .f32) (A : Vec Ideal S16x128x1 .f32) :
    k0_pay16 (F := Ideal) x0 x1 x2 A = gaussStep x0 (colRow x1 ![0, 4] slices_S128x8_o0_4_S128x1) (colRow x2 ![0, 4] slices_S128x8_o0_4_S128x1) A := rfl
theorem pay6_step (x0 : Vec Ideal S16x128x512 .f32) (x1 x2 : Vec Ideal S128x8 .f32) (A : Vec Ideal S16x128x1 .f32) :
    k0_pay20 (F := Ideal) x0 x1 x2 A = gaussStep x0 (colRow x1 ![0, 6] slices_S128x8_o0_6_S128x1) (colRow x2 ![0, 6] slices_S128x8_o0_6_S128x1) A := rfl
theorem pay1_step (x0 : Vec Ideal S16x128x512 .f32) (x1 x2 : Vec Ideal S128x8 .f32) (A : Vec Ideal S16x128x1 .f32) :
    k0_pay11 (F := Ideal) x0 (k0_pay9 x1) (k0_pay10 x2) A
      = gaussStep x0 (colRow (k0_pay5 x1) ![0, 1] slices_S128x8_o0_1_S128x1) (colRow (k0_pay6 x2) ![0, 1] slices_S128x8_o0_1_S128x1) A := rfl
theorem pay3_step (x0 : Vec Ideal S16x128x512 .f32) (x1 x2 : Vec Ideal S128x8 .f32) (A : Vec Ideal S16x128x1 .f32) :
    k0_pay15 (F := Ideal) x0 (k0_pay13 x1) (k0_pay14 x2) A = gaussStep x0 (colRow x1 ![0, 3] slices_S128x8_o0_3_S128x1) (colRow x2 ![0, 3] slices_S128x8_o0_3_S128x1) A := rfl
theorem pay5_step (x0 : Vec Ideal S16x128x512 .f32) (x1 x2 : Vec Ideal S128x8 .f32) (A : Vec Ideal S16x128x1 .f32) :
    k0_pay19 (F := Ideal) x0 (k0_pay17 x1) (k0_pay18 x2) A = gaussStep x0 (colRow x1 ![0, 5] slices_S128x8_o0_5_S128x1) (colRow x2 ![0, 5] slices_S128x8_o0_5_S128x1) A := rfl
theorem pay7_step (x0 : Vec Ideal S16x128x512 .f32) (x1 x2 : Vec Ideal S128x8 .f32) (A : Vec Ideal S16x128x1 .f32) :
    k0_pay1 (F := Ideal) x0 (k0_pay21 x1) (k0_pay22 x2) A = gaussStep x0 (colRow x1 ![0, 7] slices_S128x8_o0_7_S128x1) (colRow x2 ![0, 7] slices_S128x8_o0_7_S128x1) A := rfl
theorem pay8s_step (x0 : Vec Ideal S16x128x512 .f32) (x3 : Vec Ideal S128x1 .f32) (A : Vec Ideal S16x128x1 .f32) :
    k0_pay2 (F := Ideal) x0 (k0_pay7 x3) A = sigmStep x0 (k0_pay7 x3) A := rfl

/-! ## Each store's payload at (b, c): the column read plus the tile's weights of its bin -/

theorem bin0_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay8 (F := Ideal) x0 x1 x2 A) (ix3 b c z)
      = A (ix3 b c z) + ∑ l : Fin 512, weight x1 x2 x3 c ⟨0, by omega⟩ (x0 (ix3 b c l)) := by
  rw [pay0_step, pay4_eq, pay5_eq, pay6_eq]
  exact gaussBin_apply x0 x1 x2 x3 A ⟨0, by omega⟩ ![0, 0] rfl slices_S128x8_o0_0_S128x1 slices_S128x8_o0_0_S128x1 b c z

theorem bin1_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay11 (F := Ideal) x0 (k0_pay9 x1) (k0_pay10 x2) A) (ix3 b c z)
      = A (ix3 b c z) + ∑ l : Fin 512, weight x1 x2 x3 c ⟨1, by omega⟩ (x0 (ix3 b c l)) := by
  rw [pay1_step, pay5_eq, pay6_eq]
  exact gaussBin_apply x0 x1 x2 x3 A ⟨1, by omega⟩ ![0, 1] rfl slices_S128x8_o0_1_S128x1 slices_S128x8_o0_1_S128x1 b c z

theorem bin2_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay12 (F := Ideal) x0 x1 x2 A) (ix3 b c z)
      = A (ix3 b c z) + ∑ l : Fin 512, weight x1 x2 x3 c ⟨2, by omega⟩ (x0 (ix3 b c l)) := by
  rw [pay2_step]
  exact gaussBin_apply x0 x1 x2 x3 A ⟨2, by omega⟩ ![0, 2] rfl slices_S128x8_o0_2_S128x1 slices_S128x8_o0_2_S128x1 b c z

theorem bin3_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay15 (F := Ideal) x0 (k0_pay13 x1) (k0_pay14 x2) A) (ix3 b c z)
      = A (ix3 b c z) + ∑ l : Fin 512, weight x1 x2 x3 c ⟨3, by omega⟩ (x0 (ix3 b c l)) := by
  rw [pay3_step]
  exact gaussBin_apply x0 x1 x2 x3 A ⟨3, by omega⟩ ![0, 3] rfl slices_S128x8_o0_3_S128x1 slices_S128x8_o0_3_S128x1 b c z

theorem bin4_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay16 (F := Ideal) x0 x1 x2 A) (ix3 b c z)
      = A (ix3 b c z) + ∑ l : Fin 512, weight x1 x2 x3 c ⟨4, by omega⟩ (x0 (ix3 b c l)) := by
  rw [pay4_step]
  exact gaussBin_apply x0 x1 x2 x3 A ⟨4, by omega⟩ ![0, 4] rfl slices_S128x8_o0_4_S128x1 slices_S128x8_o0_4_S128x1 b c z

theorem bin5_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay19 (F := Ideal) x0 (k0_pay17 x1) (k0_pay18 x2) A) (ix3 b c z)
      = A (ix3 b c z) + ∑ l : Fin 512, weight x1 x2 x3 c ⟨5, by omega⟩ (x0 (ix3 b c l)) := by
  rw [pay5_step]
  exact gaussBin_apply x0 x1 x2 x3 A ⟨5, by omega⟩ ![0, 5] rfl slices_S128x8_o0_5_S128x1 slices_S128x8_o0_5_S128x1 b c z

theorem bin6_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay20 (F := Ideal) x0 x1 x2 A) (ix3 b c z)
      = A (ix3 b c z) + ∑ l : Fin 512, weight x1 x2 x3 c ⟨6, by omega⟩ (x0 (ix3 b c l)) := by
  rw [pay6_step]
  exact gaussBin_apply x0 x1 x2 x3 A ⟨6, by omega⟩ ![0, 6] rfl slices_S128x8_o0_6_S128x1 slices_S128x8_o0_6_S128x1 b c z

theorem bin7_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay1 (F := Ideal) x0 (k0_pay21 x1) (k0_pay22 x2) A) (ix3 b c z)
      = A (ix3 b c z) + ∑ l : Fin 512, weight x1 x2 x3 c ⟨7, by omega⟩ (x0 (ix3 b c l)) := by
  rw [pay7_step]
  exact gaussBin_apply x0 x1 x2 x3 A ⟨7, by omega⟩ ![0, 7] rfl slices_S128x8_o0_7_S128x1 slices_S128x8_o0_7_S128x1 b c z

theorem bin8_val (x0 : Vec Ideal S16x128x512 .f32) (x1 x2 : Vec Ideal S128x8 .f32) (x3 : Vec Ideal S128x1 .f32)
    (A : Vec Ideal S16x128x1 .f32) (b : Fin 16) (c : Fin 128) (z : Fin 1) :
    (k0_pay2 (F := Ideal) x0 (k0_pay7 x3) A) (ix3 b c z)
      = A (ix3 b c z) + ∑ l : Fin 512, weight x1 x2 x3 c ⟨8, by omega⟩ (x0 (ix3 b c l)) := by
  rw [pay8s_step, pay7_eq]
  exact sigmBin_apply x0 x1 x2 x3 A b c z

/-- If each column read A_j is column j of an array `before`, every store agrees with before + the tile's sums. -/
theorem nine_agree (x0 : Vec Ideal S16x128x512 .f32) (x1 x2 : Vec Ideal S128x8 .f32) (x3 : Vec Ideal S128x1 .f32)
    (A0 A1 A2 A3 A4 A5 A6 A7 A8 : Vec Ideal S16x128x1 .f32) (before : S16x128x9.Idx → EReal)
    (h0 : ∀ b c z, A0 (ix3 b c z) = before (ix3 b c ⟨0, by omega⟩))
    (h1 : ∀ b c z, A1 (ix3 b c z) = before (ix3 b c ⟨1, by omega⟩))
    (h2 : ∀ b c z, A2 (ix3 b c z) = before (ix3 b c ⟨2, by omega⟩))
    (h3 : ∀ b c z, A3 (ix3 b c z) = before (ix3 b c ⟨3, by omega⟩))
    (h4 : ∀ b c z, A4 (ix3 b c z) = before (ix3 b c ⟨4, by omega⟩))
    (h5 : ∀ b c z, A5 (ix3 b c z) = before (ix3 b c ⟨5, by omega⟩))
    (h6 : ∀ b c z, A6 (ix3 b c z) = before (ix3 b c ⟨6, by omega⟩))
    (h7 : ∀ b c z, A7 (ix3 b c z) = before (ix3 b c ⟨7, by omega⟩))
    (h8 : ∀ b c z, A8 (ix3 b c z) = before (ix3 b c ⟨8, by omega⟩)) :
    ∀ p ∈ ninePieces x0 x1 x2 x3 A0 A1 A2 A3 A4 A5 A6 A7 A8, ∀ x : p.1.shape.Idx,
      p.2 x = (fun y => before y + tileSum x0 x1 x2 x3 y) (p.1.emb x) := by
  intro p hp
  unfold ninePieces at hp
  simp only [List.mem_cons, List.not_mem_nil, or_false] at hp
  rcases hp with rfl | rfl | rfl | rfl | rfl | rfl | rfl | rfl | rfl
  · exact col_agrees 8 (by omega) inb_S16x128x9_S16x128x1_0_0_8 _ before (tileSum x0 x1 x2 x3) fun b c z =>
      (bin8_val x0 x1 x2 x3 A8 b c z).trans (by rw [h8 b c z]; rfl)
  · exact col_agrees 7 (by omega) inb_S16x128x9_S16x128x1_0_0_7 _ before (tileSum x0 x1 x2 x3) fun b c z =>
      (bin7_val x0 x1 x2 x3 A7 b c z).trans (by rw [h7 b c z]; rfl)
  · exact col_agrees 6 (by omega) inb_S16x128x9_S16x128x1_0_0_6 _ before (tileSum x0 x1 x2 x3) fun b c z =>
      (bin6_val x0 x1 x2 x3 A6 b c z).trans (by rw [h6 b c z]; rfl)
  · exact col_agrees 5 (by omega) inb_S16x128x9_S16x128x1_0_0_5 _ before (tileSum x0 x1 x2 x3) fun b c z =>
      (bin5_val x0 x1 x2 x3 A5 b c z).trans (by rw [h5 b c z]; rfl)
  · exact col_agrees 4 (by omega) inb_S16x128x9_S16x128x1_0_0_4 _ before (tileSum x0 x1 x2 x3) fun b c z =>
      (bin4_val x0 x1 x2 x3 A4 b c z).trans (by rw [h4 b c z]; rfl)
  · exact col_agrees 3 (by omega) inb_S16x128x9_S16x128x1_0_0_3 _ before (tileSum x0 x1 x2 x3) fun b c z =>
      (bin3_val x0 x1 x2 x3 A3 b c z).trans (by rw [h3 b c z]; rfl)
  · exact col_agrees 2 (by omega) inb_S16x128x9_S16x128x1_0_0_2 _ before (tileSum x0 x1 x2 x3) fun b c z =>
      (bin2_val x0 x1 x2 x3 A2 b c z).trans (by rw [h2 b c z]; rfl)
  · exact col_agrees 1 (by omega) inb_S16x128x9_S16x128x1_0_0_1 _ before (tileSum x0 x1 x2 x3) fun b c z =>
      (bin1_val x0 x1 x2 x3 A1 b c z).trans (by rw [h1 b c z]; rfl)
  · exact col_agrees 0 (by omega) inb_S16x128x9_S16x128x1_0_0_0 _ before (tileSum x0 x1 x2 x3) fun b c z =>
      (bin0_val x0 x1 x2 x3 A0 b c z).trans (by rw [h0 b c z]; rfl)

end Cert.KernelIdeal.HistPieces

end
-- ==== Proof.HistCases.lean ====
/-
  The three kinds of grid point.

  A block of 16 images is visited at 8 consecutive grid points, one per tile of 512 samples.  Writing "before" for
  the running totals when the point starts and tileSum x for the tile's per-bin sums of weights:

    first tile   : the totals are reset to zero and then updated:      after = 0 + tileSum x
    middle tiles : the totals are updated:                             after = before + tileSum x
    last tile    : the same update, and the output block receives a copy of the totals after it.
-/
import proofs.«161803_j42425686950254_1_alg».proof.Proof.HistPieces

set_option maxRecDepth 16384

noncomputable section

namespace Cert.KernelIdeal.HistCases

open Cert.KernelIdeal Cert.KernelIdeal.Gen Idealize.ShloMosaic Idealize.ShloMosaic.TcCoe Idealize.SL.Sem
open Idealize.ShloMosaic.ValueIdx Cert.Hist Cert.KernelIdeal.HistStep Cert.KernelIdeal.HistPieces

/-- A middle tile: every bin column of the totals grows by the tile's sums. -/
theorem stepB (c : Dev nD) (i : grid0.Coords) (arg2 : Memref sig .tc .vmem S16x128x512 .f32) (harg2 : arg2.IsWhole) (arg3 : Memref sig .tc .vmem S128x8 .f32) (harg3 : arg3.IsWhole) (arg4 : Memref sig .tc .vmem S128x8 .f32) (harg4 : arg4.IsWhole) (arg5 : Memref sig .tc .vmem S128x1 .f32) (harg5 : arg5.IsWhole) (arg6 : Memref sig .tc .vmem S16x128x9 .f32) (harg6 : arg6.IsWhole) (arg7 : Memref sig .tc .vmem S16x128x9 .f32) (harg7 : arg7.IsWhole) (hc0 : ¬cond0_0 i) (hc1 : ¬cond0_1 i)
    (x0 : Vec Ideal S16x128x512 .f32) (x1 : Vec Ideal S128x8 .f32) (x2 : Vec Ideal S128x8 .f32) (x3 : Vec Ideal S128x1 .f32) (xs0 : Vec Ideal S16x128x9 .f32) :
    sout0_B_0 (F := Ideal) c i arg2 harg2 arg3 harg3 arg4 harg4 arg5 harg5 arg6 harg6 arg7 harg7 hc0 hc1 x0 x1 x2 x3 xs0 = fun y => xs0 y + tileSum x0 x1 x2 x3 y := by
  funext y
  unfold sout0_B_0
  rw [View.read_writes_apply_eq_canon _ _ y _ (scover0_B_0 c i arg2 harg2 arg3 harg3 arg4 harg4 arg5 harg5 arg6 harg6 arg7 harg7 hc0 hc1 x0 x1 x2 x3 xs0 y)]
  refine View.canon_apply_of_pieces (fun y => xs0 y + tileSum x0 x1 x2 x3 y) _ ?_ y (scover0_B_0 c i arg2 harg2 arg3 harg3 arg4 harg4 arg5 harg5 arg6 harg6 arg7 harg7 hc0 hc1 x0 x1 x2 x3 xs0 y)
  unfold kernelRun0_B
  dsimp only
  sl_unfold_words
  simp only [View.readAt_eq_ld, harg2.read_unread, harg3.read_unread, harg4.read_unread, harg5.read_unread, harg7.read_unread,
    View.ld_unit_zero (S := S16x128x512) hz3, View.ld_unit_zero (S := S128x8) hz2, View.ld_unit_zero (S := S128x1) hz2,
    pay4_eq, pay5_eq, pay6_eq]
  refine nine_agree x0 x1 x2 x3 _ _ _ _ _ _ _ _ _ xs0 ?_ ?_ ?_ ?_ ?_ ?_ ?_ ?_ ?_
  · intro b c z; exact congrArg xs0 (colEmb 0 (by omega) inb_S16x128x9_S16x128x1_0_0_0 b c z)
  · intro b c z; exact congrArg xs0 (colEmb 1 (by omega) inb_S16x128x9_S16x128x1_0_0_1 b c z)
  · intro b c z; exact congrArg xs0 (colEmb 2 (by omega) inb_S16x128x9_S16x128x1_0_0_2 b c z)
  · intro b c z; exact congrArg xs0 (colEmb 3 (by omega) inb_S16x128x9_S16x128x1_0_0_3 b c z)
  · intro b c z; exact congrArg xs0 (colEmb 4 (by omega) inb_S16x128x9_S16x128x1_0_0_4 b c z)
  · intro b c z; exact congrArg xs0 (colEmb 5 (by omega) inb_S16x128x9_S16x128x1_0_0_5 b c z)
  · intro b c z; exact congrArg xs0 (colEmb 6 (by omega) inb_S16x128x9_S16x128x1_0_0_6 b c z)
  · intro b c z; exact congrArg xs0 (colEmb 7 (by omega) inb_S16x128x9_S16x128x1_0_0_7 b c z)
  · intro b c z; exact congrArg xs0 (colEmb 8 (by omega) inb_S16x128x9_S16x128x1_0_0_8 b c z)

/-- The last tile: the same update of the totals. -/
theorem stepC (c : Dev nD) (i : grid0.Coords) (arg2 : Memref sig .tc .vmem S16x128x512 .f32) (harg2 : arg2.IsWhole) (arg3 : Memref sig .tc .vmem S128x8 .f32) (harg3 : arg3.IsWhole) (arg4 : Memref sig .tc .vmem S128x8 .f32) (harg4 : arg4.IsWhole) (arg5 : Memref sig .tc .vmem S128x1 .f32) (harg5 : arg5.IsWhole) (arg6 : Memref sig .tc .vmem S16x128x9 .f32) (harg6 : arg6.IsWhole) (arg7 : Memref sig .tc .vmem S16x128x9 .f32) (harg7 : arg7.IsWhole) (hc0 : ¬cond0_0 i) (hc1 : cond0_1 i)
    (x0 : Vec Ideal S16x128x512 .f32) (x1 : Vec Ideal S128x8 .f32) (x2 : Vec Ideal S128x8 .f32) (x3 : Vec Ideal S128x1 .f32) (xs0 : Vec Ideal S16x128x9 .f32) :
    sout0_C_0 (F := Ideal) c i arg2 harg2 arg3 harg3 arg4 harg4 arg5 harg5 arg6 harg6 arg7 harg7 hc0 hc1 x0 x1 x2 x3 xs0 = fun y => xs0 y + tileSum x0 x1 x2 x3 y := by
  funext y
  unfold sout0_C_0
  rw [View.read_writes_apply_eq_canon _ _ y _ (scover0_C_0 c i arg2 harg2 arg3 harg3 arg4 harg4 arg5 harg5 arg6 harg6 arg7 harg7 hc0 hc1 x0 x1 x2 x3 xs0 y)]
  refine View.canon_apply_of_pieces (fun y => xs0 y + tileSum x0 x1 x2 x3 y) _ ?_ y (scover0_C_0 c i arg2 harg2 arg3 harg3 arg4 harg4 arg5 harg5 arg6 harg6 arg7 harg7 hc0 hc1 x0 x1 x2 x3 xs0 y)
  unfold kernelRun0_C
  dsimp only
  sl_unfold_words
  simp only [View.readAt_eq_ld, harg2.read_unread, harg3.read_unread, harg4.read_unread, harg5.read_unread, harg7.read_unread,
    View.ld_unit_zero (S := S16x128x512) hz3, View.ld_unit_zero (S := S128x8) hz2, View.ld_unit_zero (S := S128x1) hz2,
    pay4_eq, pay5_eq, pay6_eq]
  refine nine_agree x0 x1 x2 x3 _ _ _ _ _ _ _ _ _ xs0 ?_ ?_ ?_ ?_ ?_ ?_ ?_ ?_ ?_
  · intro b c z; exact congrArg xs0 (colEmb 0 (by omega) inb_S16x128x9_S16x128x1_0_0_0 b c z)
  · intro b c z; exact congrArg xs0 (colEmb 1 (by omega) inb_S16x128x9_S16x128x1_0_0_1 b c z)
  · intro b c z; exact congrArg xs0 (colEmb 2 (by omega) inb_S16x128x9_S16x128x1_0_0_2 b c z)
  · intro b c z; exact congrArg xs0 (colEmb 3 (by omega) inb_S16x128x9_S16x128x1_0_0_3 b c z)
  · intro b c z; exact congrArg xs0 (colEmb 4 (by omega) inb_S16x128x9_S16x128x1_0_0_4 b c z)
  · intro b c z; exact congrArg xs0 (colEmb 5 (by omega) inb_S16x128x9_S16x128x1_0_0_5 b c z)
  · intro b c z; exact congrArg xs0 (colEmb 6 (by omega) inb_S16x128x9_S16x128x1_0_0_6 b c z)
  · intro b c z; exact congrArg xs0 (colEmb 7 (by omega) inb_S16x128x9_S16x128x1_0_0_7 b c z)
  · intro b c z; exact congrArg xs0 (colEmb 8 (by omega) inb_S16x128x9_S16x128x1_0_0_8 b c z)

/-- The last tile's copy: the output block is the totals after the update (it is read back whole from the buffer
    after the nine column stores). -/
theorem outC (c : Dev nD) (i : grid0.Coords) (arg2 : Memref sig .tc .vmem S16x128x512 .f32) (harg2 : arg2.IsWhole) (arg3 : Memref sig .tc .vmem S128x8 .f32) (harg3 : arg3.IsWhole) (arg4 : Memref sig .tc .vmem S128x8 .f32) (harg4 : arg4.IsWhole) (arg5 : Memref sig .tc .vmem S128x1 .f32) (harg5 : arg5.IsWhole) (arg6 : Memref sig .tc .vmem S16x128x9 .f32) (harg6 : arg6.IsWhole) (arg7 : Memref sig .tc .vmem S16x128x9 .f32) (harg7 : arg7.IsWhole) (hc0 : ¬cond0_0 i) (hc1 : cond0_1 i)
    (x0 : Vec Ideal S16x128x512 .f32) (x1 : Vec Ideal S128x8 .f32) (x2 : Vec Ideal S128x8 .f32) (x3 : Vec Ideal S128x1 .f32) (xs0 : Vec Ideal S16x128x9 .f32) :
    out0_C_4 (F := Ideal) c i arg2 harg2 arg3 harg3 arg4 harg4 arg5 harg5 arg6 harg6 arg7 harg7 hc0 hc1 x0 x1 x2 x3 xs0 = sout0_C_0 (F := Ideal) c i arg2 harg2 arg3 harg3 arg4 harg4 arg5 harg5 arg6 harg6 arg7 harg7 hc0 hc1 x0 x1 x2 x3 xs0 := by
  unfold out0_C_4 sout0_C_0
  rw [View.read_writes_eq_canon _ _ _ (cover0_C_4 c i arg2 harg2 arg3 harg3 arg4 harg4 arg5 harg5 arg6 harg6 arg7 harg7 hc0 hc1 x0 x1 x2 x3 xs0),
    View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  refine (View.readCov_eq_canon' _ _ _).trans ?_
  exact View.ld_unit_zero (S := S16x128x9) hz3 _ _

/-! ## The first tile: reads of the buffer after the zero fill -/

/-- A read of column j does not see an earlier store to another column k. -/
theorem readCov_skip {sig : RefSig} {κ : Kind} {sp : Space} (v : View sig κ sp S16x128x9 .f32) (k j : ℕ) (hkj : k ≠ j)
    (inbk : ∀ a, (![0, 0, k] : Fin 3 → ℕ) a + (![16, 128, 1] : Fin 3 → ℕ) a ≤ S16x128x9.size a)
    (inbj : ∀ a, (![0, 0, j] : Fin 3 → ℕ) a + (![16, 128, 1] : Fin 3 → ℕ) a ≤ S16x128x9.size a)
    (w : S16x128x1.Idx → EReal) (L : List (View.Piece (Elt Ideal) S16x128x9 .f32)) :
    View.readCov (Val := Elt Ideal) v (⟨Rect.unit (s := S16x128x9) ![0, 0, k] ![16, 128, 1] inbk, w⟩ :: L) (Rect.unit (s := S16x128x9) ![0, 0, j] ![16, 128, 1] inbj).toLoadRect
      = View.readCov (Val := Elt Ideal) v L (Rect.unit (s := S16x128x9) ![0, 0, j] ![16, 128, 1] inbj).toLoadRect :=
  View.readCov_cons_of_disjoint v _ L _ (Rect.unit_disjoint (inb := inbk) (inb' := inbj) (2 : Fin 3) (by show k + 1 ≤ j ∨ j + 1 ≤ k; omega))

/-- A read of column j of the zero fill is zero. -/
theorem readCov_zero {sig : RefSig} {κ : Kind} {sp : Space} (v : View sig κ sp S16x128x9 .f32) (j : ℕ)
    (inb0 : ∀ a, (![0, 0, 0] : Fin 3 → ℕ) a + (![16, 128, 9] : Fin 3 → ℕ) a ≤ S16x128x9.size a)
    (inbj : ∀ a, (![0, 0, j] : Fin 3 → ℕ) a + (![16, 128, 1] : Fin 3 → ℕ) a ≤ S16x128x9.size a) :
    View.readCov (Val := Elt Ideal) v [⟨Rect.unit (s := S16x128x9) ![0, 0, 0] ![16, 128, 9] inb0, k0_pay3 (F := Ideal)⟩]
        (Rect.unit (s := S16x128x9) ![0, 0, j] ![16, 128, 1] inbj).toLoadRect = fun _ => zeroW := by
  rw [View.readCov_eq_canon']
  funext x
  have e : View.canon (Val := Elt Ideal)
      [(⟨Rect.unit (s := S16x128x9) ![0, 0, 0] ![16, 128, 9] inb0, k0_pay3 (F := Ideal)⟩ : View.Piece (Elt Ideal) S16x128x9 .f32)]
      = k0_pay3 (F := Ideal) := View.canon_unit_zero (S := S16x128x9) hz3 inb0 _
  rw [e]
  exact pay3_apply _

/-- The first tile: the totals are the tile's sums added to zero. -/
theorem stepA (c : Dev nD) (i : grid0.Coords) (arg2 : Memref sig .tc .vmem S16x128x512 .f32) (harg2 : arg2.IsWhole) (arg3 : Memref sig .tc .vmem S128x8 .f32) (harg3 : arg3.IsWhole) (arg4 : Memref sig .tc .vmem S128x8 .f32) (harg4 : arg4.IsWhole) (arg5 : Memref sig .tc .vmem S128x1 .f32) (harg5 : arg5.IsWhole) (arg6 : Memref sig .tc .vmem S16x128x9 .f32) (harg6 : arg6.IsWhole) (arg7 : Memref sig .tc .vmem S16x128x9 .f32) (harg7 : arg7.IsWhole) (hc0 : cond0_0 i) (hc1 : ¬cond0_1 i)
    (x0 : Vec Ideal S16x128x512 .f32) (x1 : Vec Ideal S128x8 .f32) (x2 : Vec Ideal S128x8 .f32) (x3 : Vec Ideal S128x1 .f32) :
    sout0_A_0 (F := Ideal) c i arg2 harg2 arg3 harg3 arg4 harg4 arg5 harg5 arg6 harg6 arg7 harg7 hc0 hc1 x0 x1 x2 x3 = fun y => zeroW + tileSum x0 x1 x2 x3 y := by
  funext y
  unfold sout0_A_0
  rw [View.read_writes_apply_eq_canon _ _ y _ (scover0_A_0 c i arg2 harg2 arg3 harg3 arg4 harg4 arg5 harg5 arg6 harg6 arg7 harg7 hc0 hc1 x0 x1 x2 x3 y)]
  unfold kernelRun0_A
  dsimp only
  sl_unfold_words
  simp only [View.readAt_eq_ld, harg2.read_unread, harg3.read_unread, harg4.read_unread, harg5.read_unread,
    View.ld_unit_zero (S := S16x128x512) hz3, View.ld_unit_zero (S := S128x8) hz2, View.ld_unit_zero (S := S128x1) hz2,
    pay4_eq, pay5_eq, pay6_eq]
  simp (disch := decide) only [readCov_skip]
  simp only [readCov_zero]
  exact View.canon_append_of_pieces (fun y => zeroW + tileSum x0 x1 x2 x3 y) [_]
    (ninePieces x0 x1 x2 x3 (fun _ => zeroW) (fun _ => zeroW) (fun _ => zeroW) (fun _ => zeroW) (fun _ => zeroW) (fun _ => zeroW) (fun _ => zeroW) (fun _ => zeroW) (fun _ => zeroW))
    (nine_agree x0 x1 x2 x3 _ _ _ _ _ _ _ _ _ (fun _ => zeroW) (fun _ _ _ => rfl) (fun _ _ _ => rfl) (fun _ _ _ => rfl)
      (fun _ _ _ => rfl) (fun _ _ _ => rfl) (fun _ _ _ => rfl) (fun _ _ _ => rfl) (fun _ _ _ => rfl) (fun _ _ _ => rfl))
    y (nine_cover x0 x1 x2 x3 _ _ _ _ _ _ _ _ _ y)

end Cert.KernelIdeal.HistCases

end
-- ==== Proof.HistAcc.lean ====
/-
  The running totals over a block's eight tiles.

  Grid point n = 8·i + p handles tile p of image block i.  Write tileAt n for the per-bin sums of weights of that
  point's tile.  The totals are reset at p = 0 and grow by tileAt n at every point, so after point n they are

      0 + Σ_{s ≤ p} tileAt (8·i + s),

  and at the last tile (p = 7), where the output block receives a copy of the totals, the block holds
  0 + Σ_{s < 8} tileAt (8·i + s): the sums over all eight tiles of the block's images.
-/
import proofs.«161803_j42425686950254_1_alg».proof.Proof.Gen.KernelIdeal.Value
import proofs.«161803_j42425686950254_1_alg».proof.Proof.HistCases

noncomputable section

namespace Cert.KernelIdeal.HistAcc

open Cert.KernelIdeal Cert.KernelIdeal.Gen Idealize.ShloMosaic Idealize.ShloMosaic.TcCoe Idealize.SL.Sem
open Idealize.ShloMosaic.ValueIdx Cert.Hist Cert.KernelIdeal.HistPieces Cert.KernelIdeal.HistCases

variable (m : (ℓ : Loc nD τ sig) → Buf (Elt Ideal) ℓ)

/-- The per-bin sums of weights of grid point n's tile (zero past the grid, where it is never used). -/
def tileAt (c : Dev nD) (n : ℕ) : S16x128x9.Idx → EReal :=
  if h : n < cfg0.N then
    tileSum (iblk m c 0 ⟨n, h⟩ : Vec Ideal S16x128x512 .f32) (iblk m c 1 ⟨n, h⟩ : Vec Ideal S128x8 .f32)
      (iblk m c 2 ⟨n, h⟩ : Vec Ideal S128x8 .f32) (iblk m c 3 ⟨n, h⟩ : Vec Ideal S128x1 .f32)
  else fun _ => 0

theorem tileAt_of_lt (c : Dev nD) (n : ℕ) (h : n < cfg0.N) :
    tileAt m c n = tileSum (iblk m c 0 ⟨n, h⟩ : Vec Ideal S16x128x512 .f32) (iblk m c 1 ⟨n, h⟩ : Vec Ideal S128x8 .f32)
      (iblk m c 2 ⟨n, h⟩ : Vec Ideal S128x8 .f32) (iblk m c 3 ⟨n, h⟩ : Vec Ideal S128x1 .f32) := dif_pos h

/-- At a first tile the totals are zero plus the tile's sums, whatever was there. -/
theorem scAt_first (c : Dev nD) (n : ℕ) (hb : n < cfg0.N) (h0 : n % 8 = 0) (acc : Vec Ideal S16x128x9 .f32) :
    Value.scAt0_0 m c n hb acc = fun y => zeroW + tileAt m c n y := by
  have h1 : ¬ n % 8 = 7 := by omega
  unfold Value.scAt0_0
  rw [dif_pos h0, dif_neg h1, stepA, tileAt_of_lt m c n hb]

/-- At any later tile the totals grow by the tile's sums. -/
theorem scAt_later (c : Dev nD) (n : ℕ) (hb : n < cfg0.N) (h0 : ¬ n % 8 = 0) (acc : Vec Ideal S16x128x9 .f32) :
    Value.scAt0_0 m c n hb acc = fun y => acc y + tileAt m c n y := by
  unfold Value.scAt0_0
  rw [dif_neg h0]
  by_cases h1 : n % 8 = 7
  · rw [dif_pos h1, stepC, tileAt_of_lt m c n hb]
  · rw [dif_neg h1, stepB, tileAt_of_lt m c n hb]

/-- The totals after point t: zero plus the sums of the tiles of t's block from its first tile up to t. -/
theorem totals_after (c : Dev nD) (t : Fin cfg0.N) (y : S16x128x9.Idx) :
    (outsAt0 m c t.val t.isLt).2 y
      = zeroW + ∑ s ∈ Finset.range (t.val % 8 + 1), tileAt m c (8 * (t.val / 8) + s) y := by
  rw [Value.soutsAt0_0_eq m c t]
  exact Pipeline.accAt_add_apply _ _ (fun _ => zeroW) (tileAt m c) (8 * (t.val / 8)) 7
    (fun h i => congrFun (scAt_first m c _ h (by omega) _) i)
    (fun n h acc i hlo hhi => congrFun (scAt_later m c n h (by omega) acc) i)
    (t.val % 8) (by omega) _ y

/-- At a last tile the output block holds the totals after the point: zero plus the sums of all eight tiles. -/
theorem block_at_last (c : Dev nD) (t : Fin cfg0.N) (h7 : t.val % 8 = 7) (y : S16x128x9.Idx) :
    (outsAt0 m c t.val t.isLt).1 y = zeroW + ∑ s ∈ Finset.range 8, tileAt m c (8 * (t.val / 8) + s) y := by
  have h0 : ¬ t.val % 8 = 0 := by omega
  have e1 : (outsAt0 m c t.val t.isLt).1 = (outsAt0 m c t.val t.isLt).2 := by
    rw [outsAt0_C m c t h0 h7]
    dsimp only
    exact outC _ _ _ _ _ _ _ _ _ _ _ _ _ _ _ _ _ _ _ _ _
  rw [e1, totals_after m c t y, h7]

end Cert.KernelIdeal.HistAcc

end
-- ==== Proof.HistFinal.lean ====
/-
  From blocks to the whole result.

  Grid point t = 8·i + p reads the samples of images 16·i … 16·i + 15, all channels, samples 512·p … 512·p + 511,
  and the three parameter arrays whole; its output block is images 16·i … 16·i + 15 of the result, written back at
  p = 7.  So the block written back by point 8·i + 7 holds, for image 16·i + b, channel c and bin j,

      0 + Σ_{s < 8} Σ_{l < 512} weight c j (X (16·i + b, c, 512·s + l))  =  Σ_{q < 4096} weight c j (X (16·i + b, c, q)),

  which is the histogram of the reshaped samples X, and the four write-backs (i = 0 … 3) cover the 64 images.
-/
import proofs.«161803_j42425686950254_1_alg».proof.Proof.HistAcc

noncomputable section

namespace Cert.KernelIdeal.HistFinal

open Cert.KernelIdeal Cert.KernelIdeal.Gen Idealize.ShloMosaic Idealize.ShloMosaic.TcCoe Idealize.SL.Sem
open Idealize.ShloMosaic.ValueIdx Cert.Hist Cert.KernelIdeal.HistPieces Cert.KernelIdeal.HistAcc
open Idealize.ShloMosaic.Pipeline (Dat)

variable (m : (ℓ : Loc nD τ sig) → Buf (Elt Ideal) ℓ) (ρ : Dev nD → PrngReg)

/-- The block index maps over the grid: the samples' block moves with (t / 8, t % 8), the parameter blocks stay at
    the origin, the output's block moves with t / 8. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = 0 ∧ win0_4.index t (2 : Fin 3) = 0 :=
  (by decide +kernel : ∀ t : Fin grid0.N, _)

/-- Image b of point t's block is image 16·(t / 8) + b of the array. -/
def imageOf (t : Fin cfg0.N) (b : Fin 16) : Fin 64 :=
  ⟨16 * (t.val / 8) + b.val, by have h1 := t.isLt; have h2 : cfg0.N = 32 := N_0; have := b.isLt; omega⟩

/-- Sample l of point t's tile is sample 512·(t % 8) + l of the pair. -/
def sampleOf (t : Fin cfg0.N) (l : Fin 512) : Fin 4096 :=
  ⟨512 * (t.val % 8) + l.val, by have := l.isLt; omega⟩

/-- The samples' block at point t, read off the reshaped samples. -/
theorem iblk0_apply (c : Dev nD) (t : Fin cfg0.N) (b : Fin 16) (cc : Fin 128) (l : Fin 512) :
    (iblk m c 0 t : Vec Ideal S16x128x512 .f32) (ix3 b cc l) = V m c main_v0 (ix3 (imageOf t b) cc (sampleOf t l)) := by
  obtain ⟨e0, e1, e2, -⟩ := idx_facts t
  unfold iblk
  rw [View.read_apply]
  show V m c main_v0 (((cfg0.win 0).blk t).view.emb (ix3 b cc l)) = _
  refine congrArg (V m c main_v0) ?_
  funext a
  apply Fin.ext
  match a with
  | ⟨0, _⟩ => show win0_0.index t (0 : Fin 3) * 16 + 1 * b.val = 16 * (t.val / 8) + b.val; omega
  | ⟨1, _⟩ => show win0_0.index t (1 : Fin 3) * 128 + 1 * cc.val = cc.val; omega
  | ⟨2, _⟩ => show win0_0.index t (2 : Fin 3) * 512 + 1 * l.val = 512 * (t.val % 8) + l.val; omega

/-- The centres' block is the whole array of centres. -/
theorem iblk1_eq (c : Dev nD) (t : Fin cfg0.N) : (iblk m c 1 t : Vec Ideal S128x8 .f32) = V m c main_v7 := by
  obtain ⟨-, -, -, e0, e1, -⟩ := idx_facts t
  funext y
  unfold iblk
  rw [View.read_apply]
  show V m c main_v7 (((cfg0.win 1).blk t).view.emb y) = _
  refine congrArg (V m c main_v7) ?_
  funext a
  apply Fin.ext
  match a with
  | ⟨0, _⟩ => show win0_1.index t (0 : Fin 2) * 128 + 1 * (y 0).val = (y 0).val; omega
  | ⟨1, _⟩ => show win0_1.index t (1 : Fin 2) * 8 + 1 * (y 1).val = (y 1).val; omega

/-- The widths' block is the whole array of widths. -/
theorem iblk2_eq (c : Dev nD) (t : Fin cfg0.N) : (iblk m c 2 t : Vec Ideal S128x8 .f32) = V m c main_v21 := by
  obtain ⟨-, -, -, -, -, e0, e1, -⟩ := idx_facts t
  funext y
  unfold iblk
  rw [View.read_apply]
  show V m c main_v21 (((cfg0.win 2).blk t).view.emb y) = _
  refine congrArg (V m c main_v21) ?_
  funext a
  apply Fin.ext
  match a with
  | ⟨0, _⟩ => show win0_2.index t (0 : Fin 2) * 128 + 1 * (y 0).val = (y 0).val; omega
  | ⟨1, _⟩ => show win0_2.index t (1 : Fin 2) * 8 + 1 * (y 1).val = (y 1).val; omega

/-- The last edges' block is the whole column of last edges. -/
theorem iblk3_eq (c : Dev nD) (t : Fin cfg0.N) : (iblk m c 3 t : Vec Ideal S128x1 .f32) = V m c main_v22 := by
  obtain ⟨-, -, -, -, -, -, -, e0, e1, -⟩ := idx_facts t
  funext y
  unfold iblk
  rw [View.read_apply]
  show V m c main_v22 (((cfg0.win 3).blk t).view.emb y) = _
  refine congrArg (V m c main_v22) ?_
  funext a
  apply Fin.ext
  match a with
  | ⟨0, _⟩ => show win0_3.index t (0 : Fin 2) * 128 + 1 * (y 0).val = (y 0).val; omega
  | ⟨1, _⟩ => show win0_3.index t (1 : Fin 2) * 1 + 1 * (y 1).val = (y 1).val; omega

/-- THE RESULT: the histogram of the reshaped samples for the centres, widths and last edges the region finds. -/
def result (c : Dev nD) : S64x128x9.Idx → EReal :=
  hist (V m c main_v0) (V m c main_v7) (V m c main_v21) (V m c main_v22)

/-- Point n's tile sums at (b, c, j), in terms of the arrays. -/
theorem tileAt_apply (c : Dev nD) (n : ℕ) (h : n < cfg0.N) (b : Fin 16) (cc : Fin 128) (j : Fin 9) :
    tileAt m c n (ix3 b cc j) = ∑ l : Fin 512, weight (V m c main_v7) (V m c main_v21) (V m c main_v22) cc j
      (V m c main_v0 (ix3 (imageOf ⟨n, h⟩ b) cc (sampleOf ⟨n, h⟩ l))) := by
  rw [tileAt_of_lt m c n h, iblk1_eq, iblk2_eq, iblk3_eq]
  unfold tileSum
  refine Finset.sum_congr rfl fun l _ => ?_
  rw [show (ix3 b cc j : S16x128x9.Idx) 0 = b from rfl, show (ix3 b cc j : S16x128x9.Idx) 1 = cc from rfl,
    show (ix3 b cc j : S16x128x9.Idx) 2 = j from rfl, iblk0_apply]

/-- WHAT A FLUSHING POINT WRITES BACK is its block of the result. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hN : cfg0.N = 32 := N_0
  have ht := t.isLt
  obtain ⟨-, -, -, -, -, -, -, -, -, e0, e1, e2⟩ := idx_facts t
  rw [Value.flushed4]
  funext y
  obtain ⟨b, cc, j, rfl⟩ : ∃ (b : Fin 16) (cc : Fin 128) (j : Fin 9), y = ix3 b cc j := ⟨y 0, y 1, y 2, eq_ix3 y⟩
  show (outsAt0 m c t.val t.isLt).1 (ix3 b cc j) = result m c (((cfg0.win 4).blk t).view.emb (ix3 b cc j))
  have he : ((cfg0.win 4).blk t).view.emb (ix3 b cc j) = ix3 (imageOf t b) cc j := by
    funext a
    apply Fin.ext
    match a with
    | ⟨0, _⟩ => show win0_4.index t (0 : Fin 3) * 16 + 1 * b.val = 16 * (t.val / 8) + b.val; omega
    | ⟨1, _⟩ => show win0_4.index t (1 : Fin 3) * 128 + 1 * cc.val = cc.val; omega
    | ⟨2, _⟩ => show win0_4.index t (2 : Fin 3) * 9 + 1 * j.val = j.val; omega
  rw [he, block_at_last m c t h7]
  unfold result hist
  rw [show (ix3 (imageOf t b) cc j : S64x128x9.Idx) 0 = imageOf t b from rfl,
    show (ix3 (imageOf t b) cc j : S64x128x9.Idx) 1 = cc from rfl,
    show (ix3 (imageOf t b) cc j : S64x128x9.Idx) 2 = j from rfl,
    ← eight_tiles, show (zeroW : EReal) = 0 from Ideal.ofBits_zero_f32]
  refine congrArg ((0 : EReal) + ·) (Finset.sum_congr rfl fun s hs => ?_)
  have hs8 : s < 8 := Finset.mem_range.mp hs
  have hn : 8 * (t.val / 8) + s < cfg0.N := by omega
  rw [dif_pos hs8, tileAt_apply m c _ hn]
  refine Finset.sum_congr rfl fun l _ => congrArg _ (congrArg (V m c main_v0) ?_)
  have hl := l.isLt
  have hi : imageOf ⟨8 * (t.val / 8) + s, hn⟩ b = imageOf t b := by
    apply Fin.ext; show 16 * ((8 * (t.val / 8) + s) / 8) + b.val = 16 * (t.val / 8) + b.val; omega
  have hq : sampleOf ⟨8 * (t.val / 8) + s, hn⟩ l = ⟨s * 512 + l.val, by omega⟩ := by
    apply Fin.ext; show 512 * ((8 * (t.val / 8) + s) % 8) + l.val = s * 512 + l.val; omega
  rw [hi, hq]

/-- An index of the result is in point t's output block iff each coordinate is in the block's range. -/
theorem mem_blk (t : Fin cfg0.N) (i : S64x128x9.Idx) :
    i ∈ ((cfg0.win 4).blk t).view.set ↔ ∀ a : Fin 3, win0_4.index t a * S16x128x9.size a ≤ (i a).val
      ∧ (i a).val < win0_4.index t a * S16x128x9.size a + S16x128x9.size a := by
  show i ∈ ((View.whole main_v23).slice (win0_4.rect t)).set ↔ _
  rw [View.set_slice_whole, Rect.mem_set_unit]
  exact Iff.rfl

/-- Every image lies in the block written back at the last tile of its block of 16. -/
theorem cover (i : S64x128x9.Idx) :
    ∃ t : Fin cfg0.N, (cfg0.win 4).flush t = true ∧ i ∈ ((cfg0.win 4).blk t).view.set := by
  have hN : cfg0.N = 32 := N_0
  have h0 : (i 0).val < 64 := (i 0).isLt
  have h1 : (i 1).val < 128 := (i 1).isLt
  have h2 : (i 2).val < 9 := (i 2).isLt
  have hlt : 8 * ((i 0).val / 16) + 7 < cfg0.N := by rw [hN]; omega
  obtain ⟨t, htv⟩ : ∃ t : Fin cfg0.N, t.val = 8 * ((i 0).val / 16) + 7 := ⟨⟨_, hlt⟩, rfl⟩
  obtain ⟨-, -, -, -, -, -, -, -, -, e0, e1, e2⟩ := idx_facts t
  refine ⟨t, (flush0_4 t).mpr (by rw [htv]; omega), ?_⟩
  rw [mem_blk]
  intro a
  match a with
  | ⟨0, _⟩ =>
    show win0_4.index t (0 : Fin 3) * 16 ≤ (i 0).val ∧ (i 0).val < win0_4.index t (0 : Fin 3) * 16 + 16
    rw [e0, htv]; omega
  | ⟨1, _⟩ =>
    show win0_4.index t (1 : Fin 3) * 128 ≤ (i 1).val ∧ (i 1).val < win0_4.index t (1 : Fin 3) * 128 + 128
    rw [e1]; omega
  | ⟨2, _⟩ =>
    show win0_4.index t (2 : Fin 3) * 9 ≤ (i 2).val ∧ (i 2).val < win0_4.index t (2 : Fin 3) * 9 + 9
    rw [e2]; omega

/-- So the result array after the run is the histogram. -/
theorem final (c : Dev nD) : (dats m 0 c).arrAt 4 cfg0.N = result m c :=
  (dats m 0 c).arrAt_eq_of_cover 4 (result m c) (flushed_eq m c) cover

/-- The kernel's run: it terminates with the result array at the histogram and its arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.HistFinal

end
-- ==== Proof.HistRef.lean ====
/-
  The reference computes the histogram.

  Its last operation joins, along the bin axis, an [64, 128, 8] array of Gaussian bins and an [64, 128, 1] column for
  the ninth bin.  Each is a sum over the 4096 samples from a zero start.  An entry of the Gaussian summand reads the
  reshaped samples X at (image, channel, sample) and the centres and widths at (channel, bin) through broadcasts; an
  entry of the sigmoid summand is 1 / (1 + exp (-(20 · (x - last)))), which is the logistic function of 20 · (x - last).
-/
import proofs.«161803_j42425686950254_1_alg».proof.Proof.Gen.ReferenceIdeal.Read
import proofs.«161803_j42425686950254_1_alg».proof.Proof.HistSpec
import Idealize.ShloMosaic.Lib.Pipeline.Value
import Idealize.ShloMosaic.Lib.ValueIdx

noncomputable section

namespace Cert.ReferenceIdeal.HistRef

open Cert.ReferenceIdeal Cert.ReferenceIdeal.Gen Cert.ReferenceIdeal.Read
open Idealize.ShloMosaic Idealize.ShloMosaic.ValueIdx Cert.Hist

variable (x0 : (⟨S64x128x64x64, .f32⟩ : BufTy).Contents (Elt Ideal)) (x1 : (⟨S128x8, .f32⟩ : BufTy).Contents (Elt Ideal))

/-- The f32 word of 1.0 is the number one. -/
theorem one_f32 : Ideal.ofBits .f32 0x3F800000#32 = 1 := by
  simp [Ideal.ofBits, Ideal.ieee, -EReal.coe_mul]; norm_num

/-- An entry of the Gaussian summand. -/
theorem gauss_entry (B : Fin 64) (c : Fin 128) (j : Fin 8) (k : Fin 4096) :
    val_main_v33 (F := Ideal) x0 x1 (ix4 B c j k)
      = gaussW (val_main_v0 (F := Ideal) x0 (ix3 B c k)) (val_main_v7 (F := Ideal) x1 (ix2 c j)) (val_main_v21 (F := Ideal) x1 (ix2 c j)) := by
  have i0 : idx_main_v22 (idx_main_v24 (ix4 B c j k)) = ix3 B c k :=
    funext fun a => Fin.ext (by match a with | ⟨0, _⟩ => rfl | ⟨1, _⟩ => rfl | ⟨2, _⟩ => rfl)
  have i1 : idx_main_v23 (idx_main_v25 (ix4 B c j k)) = ix2 c j :=
    funext fun a => Fin.ext (by match a with | ⟨0, _⟩ => rfl | ⟨1, _⟩ => rfl)
  have i2 : idx_main_v27 (idx_main_v28 (ix4 B c j k)) = ix2 c j :=
    funext fun a => Fin.ext (by match a with | ⟨0, _⟩ => rfl | ⟨1, _⟩ => rfl)
  rw [val_main_v33_apply, val_main_v32_apply, val_main_v31_apply, val_main_v30_apply, val_main_cst_2_apply,
    val_main_v29_apply, val_main_v26_apply, val_main_v24_apply, val_main_v22_apply, val_main_v25_apply,
    val_main_v23_apply, val_main_v28_apply, val_main_v27_apply, i0, i1, i2]
  rfl

/-- A Gaussian bin of the reference: the sum of the Gaussian weights of the pair's samples. -/
theorem gauss_bin (B : Fin 64) (c : Fin 128) (j : Fin 8) :
    val_main_v34 (F := Ideal) x0 x1 (ix3 B c j)
      = ∑ k : Fin 4096, gaussW (val_main_v0 (F := Ideal) x0 (ix3 B c k)) (val_main_v7 (F := Ideal) x1 (ix2 c j)) (val_main_v21 (F := Ideal) x1 (ix2 c j)) := by
  rw [val_main_v34_apply, val_main_cst_3_apply]
  show Ideal.ofBits .f32 0x00000000#32 + _ = _
  rw [Ideal.ofBits_zero_f32, zero_add]
  refine Finset.sum_congr rfl fun k _ => ?_
  have ik : idx_main_v34 (ix3 B c j) k = ix4 B c j k :=
    funext fun a => Fin.ext (by match a with | ⟨0, _⟩ => rfl | ⟨1, _⟩ => rfl | ⟨2, _⟩ => rfl | ⟨3, _⟩ => rfl)
  rw [ik, gauss_entry]

/-- An entry of the sigmoid summand. -/
theorem sigm_entry (B : Fin 64) (c : Fin 128) (k : Fin 4096) :
    val_main_v47 (F := Ideal) x0 x1 (ix3 B c k)
      = sigmW (val_main_v0 (F := Ideal) x0 (ix3 B c k)) (val_main_v35 (F := Ideal) x1 (ix2 c 0)) := by
  have i0 : idx_main_v36 (idx_main_v37 (idx_main_v38 (ix3 B c k))) = ix2 c 0 :=
    funext fun a => Fin.ext (by
      match a with
      | ⟨0, _⟩ => show c.val / 1 = c.val; omega
      | ⟨1, _⟩ => rfl)
  rw [val_main_v47_apply, val_main_v46_apply, val_main_cst_6_apply, val_main_v45_apply, val_main_v44_apply,
    val_main_cst_5_apply, val_main_v43_apply, val_main_v42_apply, val_main_v41_apply, val_main_v40_apply,
    val_main_cst_4_apply, val_main_v39_apply, val_main_v38_apply, val_main_v37_apply, val_main_v36_apply, i0]
  show Ideal.div (Ideal.ofBits .f32 0x3F800000#32) (Ideal.ofBits .f32 0x3F800000#32
      + Ideal.exp (-(Ideal.ofBits .f32 0x41A00000#32 * (val_main_v0 (F := Ideal) x0 (ix3 B c k) - val_main_v35 (F := Ideal) x1 (ix2 c 0))))) = _
  rw [one_f32]
  rfl

/-- The ninth bin of the reference: the sum of the sigmoid weights of the pair's samples. -/
theorem sigm_bin (B : Fin 64) (c : Fin 128) :
    val_main_v48 (F := Ideal) x0 x1 (ix2 B c)
      = ∑ k : Fin 4096, sigmW (val_main_v0 (F := Ideal) x0 (ix3 B c k)) (val_main_v35 (F := Ideal) x1 (ix2 c 0)) := by
  rw [val_main_v48_apply, val_main_cst_7_apply]
  show Ideal.ofBits .f32 0x00000000#32 + _ = _
  rw [Ideal.ofBits_zero_f32, zero_add]
  refine Finset.sum_congr rfl fun k _ => ?_
  have ik : idx_main_v48 (ix2 B c) k = ix3 B c k :=
    funext fun a => Fin.ext (by match a with | ⟨0, _⟩ => rfl | ⟨1, _⟩ => rfl | ⟨2, _⟩ => rfl)
  rw [ik, sigm_entry]

/-- THE REFERENCE'S RESULT is the histogram of its reshaped samples for its centres, widths and last edges. -/
theorem ref_eq : val_main_v50 (F := Ideal) x0 x1
    = hist (val_main_v0 (F := Ideal) x0) (val_main_v7 (F := Ideal) x1) (val_main_v21 (F := Ideal) x1) (val_main_v35 (F := Ideal) x1) := by
  funext i
  obtain ⟨B, c, j, rfl⟩ : ∃ (B : Fin 64) (c : Fin 128) (j : Fin 9), i = ix3 B c j := ⟨i 0, i 1, i 2, eq_ix3 i⟩
  unfold val_main_v50 hist
  rw [show (ix3 B c j : S64x128x9.Idx) 0 = B from rfl, show (ix3 B c j : S64x128x9.Idx) 1 = c from rfl,
    show (ix3 B c j : S64x128x9.Idx) 2 = j from rfl]
  by_cases hj : j.val < 8
  · rw [concatenate_pair_apply_left (t := S64x128x9) (s₁ := S64x128x8) (s₂ := S64x128x1) (2 : Fin 3) _ _ concatenates_S64x128x8_S64x128x1_S64x128x9_d2 (ix3 B c j) rfl
        (ix3 B c ⟨j.val, hj⟩) (fun b => by match b with | ⟨0, _⟩ => rfl | ⟨1, _⟩ => rfl | ⟨2, _⟩ => rfl),
      gauss_bin]
    refine Finset.sum_congr rfl fun q _ => ?_
    unfold weight
    rw [dif_pos hj]
  · have hj8 : j.val = 8 := by have := j.isLt; omega
    rw [concatenate_pair_apply_right (t := S64x128x9) (s₁ := S64x128x8) (s₂ := S64x128x1) (2 : Fin 3) _ _ concatenates_S64x128x8_S64x128x1_S64x128x9_d2 (ix3 B c j) rfl rfl
        (ix3 B c 0) (fun b hb => by
          match b with
          | ⟨0, _⟩ => rfl
          | ⟨1, _⟩ => rfl
          | ⟨2, _⟩ => exact absurd rfl hb)
        (by show 0 + 8 = j.val; omega),
      val_main_v49_apply,
      show idx_main_v49 (ix3 B c (0 : Fin 1)) = ix2 B c from
        funext fun a => Fin.ext (by match a with | ⟨0, _⟩ => rfl | ⟨1, _⟩ => rfl),
      sigm_bin]
    refine Finset.sum_congr rfl fun q _ => ?_
    unfold weight
    rw [dif_neg hj]

end Cert.ReferenceIdeal.HistRef

end
-- ==== Proof.HistParams.lean ====
/-
  The arrays the kernel's region finds are the reference's.

  Before the region the kernel's program reshapes the samples to [64, 128, 4096] and computes, from the edges, the
  bin centres, the bin widths and the column of last edges, by the same operations in the same order as the
  reference's first lines.  So each of the four arrays is the reference's stage of the same argument.
-/
import proofs.«161803_j42425686950254_1_alg».proof.Proof.Gen.KernelIdeal.Frame
import proofs.«161803_j42425686950254_1_alg».proof.Proof.Gen.ReferenceIdeal.Read
import Idealize.ShloMosaic.Lib.StableHlo.Run

noncomputable section

namespace Cert.KernelIdeal.HistParams

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The reshaped samples. -/
theorem samples_eq : (V m c main_v0 : S64x128x4096.Idx → EReal)
    = Cert.ReferenceIdeal.Read.val_main_v0 (F := Ideal) (m ((c : Thread nD τ).loc main_arg0)) := by
  dsimp only [V, hostOps0]
  after_results
  rfl

/-- The bin centres. -/
theorem centres_eq : (V m c main_v7 : S128x8.Idx → EReal)
    = Cert.ReferenceIdeal.Read.val_main_v7 (F := Ideal) (m ((c : Thread nD τ).loc main_arg1)) := by
  dsimp only [V, hostOps0]
  after_results
  rfl

/-- The bin widths. -/
theorem widths_eq : (V m c main_v21 : S128x8.Idx → EReal)
    = Cert.ReferenceIdeal.Read.val_main_v21 (F := Ideal) (m ((c : Thread nD τ).loc main_arg1)) := by
  dsimp only [V, hostOps0]
  after_results
  rfl

/-- The last edges. -/
theorem last_eq : (V m c main_v22 : S128x1.Idx → EReal)
    = Cert.ReferenceIdeal.Read.val_main_v35 (F := Ideal) (m ((c : Thread nD τ).loc main_arg1)) := by
  dsimp only [V, hostOps0]
  after_results
  rfl

end Cert.KernelIdeal.HistParams

end
-- ==== Proof.lean ====
/-
  A soft histogram by channel: the tiled kernel against the whole-axis reference.

  The input is x : [64, 128, 64, 64] (64 images, 128 channels, 64 × 64 samples) and edges : [128, 8].  From the
  edges both programs compute, by the same operations, bin centres M and widths S ([128, 8]) and the last edge L.
  The result is [64, 128, 9]: for image b, channel c,

      bin j < 8 :  Σ_q exp ((-1/2 · z) · z),  z = (X (b, c, q) - M (c, j)) / S (c, j),
      bin 8     :  Σ_q logistic (20 · (X (b, c, q) - L c)),

  the sums over the 4096 samples q of the pair, X the samples reshaped to [64, 128, 4096].

  The reference sums over q at once, from a zero start.  The kernel visits a block of 16 images at 8 consecutive grid
  points, one per tile of 512 samples: the first resets a buffer of running totals to zero, every point adds its
  tile's sums to the buffer, bin column by bin column, and the last copies the buffer to the output block.  The two
  agree because a sum over 4096 consecutive indices is the sum over 8 tiles of 512, added one after the other to
  zero: commutativity and associativity of addition only, so the equality holds on the extended reals whatever the
  weights are, and the finiteness of the inputs is not used.  The kernel's one-operation logistic and the reference's
  1 / (1 + exp (-y)) are the same function of every extended real.

  Nothing was rewritten when the kernel was idealized, so the preservation claim is trivial.
-/
import proofs.«161803_j42425686950254_1_alg».proof.Defs
import proofs.«161803_j42425686950254_1_alg».proof.Proof.Gen.Kernel
import proofs.«161803_j42425686950254_1_alg».proof.Proof.Gen.Kernel.Skeleton
import proofs.«161803_j42425686950254_1_alg».proof.Proof.Gen.Kernel.Launch
import proofs.«161803_j42425686950254_1_alg».proof.Proof.Gen.Kernel.Points
import proofs.«161803_j42425686950254_1_alg».proof.Proof.Gen.Kernel.Frame
import proofs.«161803_j42425686950254_1_alg».proof.Proof.Gen.KernelIdeal
import proofs.«161803_j42425686950254_1_alg».proof.Proof.Gen.KernelIdeal.Skeleton
import proofs.«161803_j42425686950254_1_alg».proof.Proof.Gen.KernelIdeal.Launch
import proofs.«161803_j42425686950254_1_alg».proof.Proof.Gen.KernelIdeal.Points
import proofs.«161803_j42425686950254_1_alg».proof.Proof.Gen.KernelIdeal.Frame
import proofs.«161803_j42425686950254_1_alg».proof.Proof.Gen.ReferenceIdeal
import proofs.«161803_j42425686950254_1_alg».proof.Proof.Gen.Pre_finite_inputs
import proofs.«161803_j42425686950254_1_alg».proof.Proof.Gen.KernelIdeal.Value
import proofs.«161803_j42425686950254_1_alg».proof.Proof.Gen.ReferenceIdeal.Run
import proofs.«161803_j42425686950254_1_alg».proof.Proof.Gen.ReferenceIdeal.Read
import proofs.«161803_j42425686950254_1_alg».proof.Proof.HistFinal
import proofs.«161803_j42425686950254_1_alg».proof.Proof.HistRef
import proofs.«161803_j42425686950254_1_alg».proof.Proof.HistParams
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- Over the extended reals, from memories that agree on x and edges, both programs end with the histogram of the
    reshaped samples for the centres, widths and last edges computed from the edges. -/
theorem algebraic : Cert.algebraic_KernelIdeal_ReferenceIdeal := by
  intro m ρ m' ρ' _ hagree
  refine ⟨fun c => Cert.KernelIdeal.HistFinal.result m c, Cert.KernelIdeal.HistFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.HistRef.ref_eq, (hagree c).1, (hagree c).2]
  show _ = Cert.KernelIdeal.HistFinal.result m c
  unfold Cert.KernelIdeal.HistFinal.result
  rw [Cert.KernelIdeal.HistParams.samples_eq, Cert.KernelIdeal.HistParams.centres_eq,
    Cert.KernelIdeal.HistParams.widths_eq, Cert.KernelIdeal.HistParams.last_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
